-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S200000 : Shape := ⟨1, ![200000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg7 : FVec F S64x64 .f32) (main_arg8 : FVec F S64 .f32) (main_arg9 : FVec F S64x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S200000 32) (main_arg3 : IVec S200000 32) (main_arg4 : FVec F S64x128 .f32) (main_arg5 : FVec F S64 .f32) (main_arg6 : FVec F S64x128 .f32) (main_arg7 : FVec F S64x64 .f32) (main_arg8 : FVec F S64 .f32) (main_arg9 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_v13 main_v16
-- ==== Kernel.lean ====
abbrev S100000x128 : Shape := ⟨2, ![100000, 128]⟩
abbrev S2x1600000 : Shape := ⟨2, ![2, 1600000]⟩
abbrev S200000 : Shape := ⟨1, ![200000]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S200000x1 : Shape := ⟨2, ![200000, 1]⟩
abbrev S200000x64 : Shape := ⟨2, ![200000, 64]⟩

abbrev nBuf : Space → Nat
  | .hbm => 92
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S200000, .i32⟩
  | .hbm, ⟨3, _⟩ => ⟨S200000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S128x64, .f32⟩
  | .hbm, ⟨28, _⟩ => ⟨S128x64, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S64x64, .f32⟩
  | .hbm, ⟨60, _⟩ => ⟨S64x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S200000, .i32⟩
  | .hbm, ⟨65, _⟩ => ⟨S200000, .i1⟩
  | .hbm, ⟨66, _⟩ => ⟨S_, .i32⟩
  | .hbm, ⟨67, _⟩ => ⟨S200000, .i32⟩
  | .hbm, ⟨68, _⟩ => ⟨S200000, .i32⟩
  | .hbm, ⟨69, _⟩ => ⟨S200000, .i32⟩
  | .hbm, ⟨70, _⟩ => ⟨S200000x1, .i32⟩
  | .hbm, ⟨71, _⟩ => ⟨S200000x64, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000x64, .f32⟩
  | .hbm, ⟨81, _⟩ => ⟨S200000x64, .f32⟩
  | .hbm, ⟨82, _⟩ => ⟨S_, .f32⟩
  | .hbm, ⟨83, _⟩ => ⟨S200000, .f32⟩
  | .hbm, ⟨84, _⟩ => ⟨S200000, .f32⟩
  | .hbm, ⟨85, _⟩ => ⟨S200000, .f32⟩
  | .hbm, ⟨86, _⟩ => ⟨S_, .f32⟩
  | .hbm, ⟨87, _⟩ => ⟨S200000, .f32⟩
  | .hbm, ⟨88, _⟩ => ⟨S200000, .f32⟩
  | .hbm, ⟨89, _⟩ => ⟨S_, .f32⟩
  | .hbm, ⟨90, _⟩ => ⟨S200000, .f32⟩
  | .hbm, ⟨91, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S200000 : Shape := ⟨1, ![200000]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S200000x1 : Shape := ⟨2, ![200000, 1]⟩
abbrev S200000x64 : Shape := ⟨2, ![200000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S200000, .i32⟩
  | .hbm, ⟨3, _⟩ => ⟨S200000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S128x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x64, .f32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x64, .f32⟩
  | .hbm, ⟨102, _⟩ => ⟨S200000x64, .f32⟩
  | .hbm, ⟨103, _⟩ => ⟨S_, .f32⟩
  | .hbm, ⟨104, _⟩ => ⟨S200000, .f32⟩
  | .hbm, ⟨105, _⟩ => ⟨S200000, .f32⟩
  | .hbm, ⟨106, _⟩ => ⟨S200000, .f32⟩
  | .hbm, ⟨107, _⟩ => ⟨S_, .f32⟩
  | .hbm, ⟨108, _⟩ => ⟨S200000, .f32⟩
  | .hbm, ⟨109, _⟩ => ⟨S200000, .f32⟩
  | .hbm, ⟨110, _⟩ => ⟨S_, .f32⟩
  | .hbm, ⟨111, _⟩ => ⟨S200000, .f32⟩
  | .hbm, ⟨112, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.KernelRun.lean ====
/-
  The idealized kernel's run with its result array NAMED: every weakly fair execution of @main terminates without a
  fault, the result buffer holds what the last stretch of host operations leaves there — the fold of @main's seven
  segments from the launch memory, read at the result's buffer — and the argument arrays end as launched.

  @main is three pipelined kernel regions among four stretches of host operations. The launch goes through the
  library's theorem for a program of several regions; the final thread state has every unscoped buffer at the last
  boundary's contents, so the result buffer is read off it exactly as each argument is.
-/
import proofs.«129659_j90452011254251_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.RunNamed

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.RegionProject.lean ====
/-
  The first kernel region: the two projections of the node features.

  The region walks the 100000 rows of x in 20 blocks of 5000 rows. At every block the body multiplies the
  block's rows by the whole 128 × 64 matrix W it is given (twice: once per weight matrix), into a zero accumulator,
  and stores the product as the block's rows of the output. Rounding the operands to bfloat16 is the identity on
  the extended reals. So, whatever the arrays hold when the region is entered, each output array ends holding

      (x · W)(n, f) = Σ_k x(n, k) · W(k, f)

  for all 100000 rows: row n lies in block n / 5000, the 20 blocks tile the rows, and entry (n, f) reads row n of x
  only.
-/
import proofs.«129659_j90452011254251_2_alg».proof.Proof.Gen.KernelIdeal.Frame
import proofs.«129659_j90452011254251_2_alg».proof.Proof.LibMatmul2d
import Idealize.ShloMosaic.Lib.Pipeline.Value
import Idealize.ShloMosaic.Lib.ValueIdx

set_option maxRecDepth 16384

noncomputable section

namespace Cert.KernelIdeal.RegionProject

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- The rows of a 100000 × 128 array times a 128 × 64 matrix. -/
def rowsTimes (x : S100000x128.Idx → EReal) (w : S128x64.Idx → EReal) : S100000x64.Idx → EReal :=
  fun i => ∑ k : Fin 128, x (ix2 (⟨(i 0).val, (i 0).isLt⟩ : Fin 100000) k) * w (ix2 k (⟨(i 1).val, (i 1).isLt⟩ : Fin 64))

theorem zeroOffset : (![0, 0] : Fin 2 → Nat) = fun _ => 0 := funext fun a => by fin_cases a <;> rfl

/-- Equal factors, equal products. -/
theorem mul_congr {a b a' b' : EReal} (h : a = a') (h' : b = b') : a * b = a' * b' := by subst h h'; rfl

/-- One block's product, entry by entry: the first weight matrix. -/
theorem pay2_apply (x0 : Vec Ideal S5000x128 .f32) (w : Vec Ideal S128x64 .f32) (p : Fin 5000) (q : Fin 64) :
    k0_pay2 (F := Ideal) x0 w (ix2 p q) = ∑ k : Fin 128, x0 (ix2 p k) * w (ix2 k q) := by
  unfold k0_pay2 k0_pay1
  simp only [shapeCast_self]
  exact Cert.LibMatmul2d.matmul_plain_apply (M := 5000) (K := 128) (N := 64) (φ₁ := .bf16) (φ₂ := .bf16) x0 w p q

/-- One block's product, entry by entry: the second weight matrix. -/
theorem pay3_apply (x0 : Vec Ideal S5000x128 .f32) (w : Vec Ideal S128x64 .f32) (p : Fin 5000) (q : Fin 64) :
    k0_pay3 (F := Ideal) x0 w (ix2 p q) = ∑ k : Fin 128, x0 (ix2 p k) * w (ix2 k q) := by
  unfold k0_pay3 k0_pay1
  simp only [shapeCast_self]
  exact Cert.LibMatmul2d.matmul_plain_apply (M := 5000) (K := 128) (N := 64) (φ₁ := .bf16) (φ₂ := .bf16) x0 w p q

/-- The printed index maps over the grid: the row-blocked windows sit at block t, the matrices at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- What point t writes back to the first output is block t of x · W. -/
theorem flushed3_eq (c : Dev nD) (t : Fin cfg0.N) :
    (dat0 V c).flushed 3 t = ((cfg0.win 3).blk t).view.read (Elt Ideal) (rowsTimes (V c main_arg0) (V c main_v13)) := by
  show (cfg0.win 3).cut (grid0.coords t) ((dat0 V c).after 3 t) = _
  rw [after0_3]
  unfold out0_3
  rw [View.canon_unit_zero zeroOffset]
  simp only [View.ld_unit_zero (S := S5000x128) zeroOffset, View.ld_unit_zero (S := S128x64) zeroOffset]
  obtain ⟨e00, e01, e10, e11, e20, e21, e30, e31, e40, e41⟩ := idx_facts t
  funext j
  obtain ⟨p, q, rfl⟩ : ∃ (p : Fin 5000) (q : Fin 64), j = ix2 p q := ⟨j 0, j 1, eq_ix2 j⟩
  refine (pay2_apply (iblk0 V c 0 t) (iblk0 V c 1 t) p q).trans ?_
  show _ = rowsTimes (V c main_arg0) (V c main_v13) (((cfg0.win 3).blk t).view.emb (ix2 p q))
  unfold rowsTimes
  refine Finset.sum_congr rfl fun k _ => ?_
  have h0 : ((cfg0.win 0).blk t).view.emb (ix2 p k)
      = ix2 (⟨((((cfg0.win 3).blk t).view.emb (ix2 p q)) 0).val, ((((cfg0.win 3).blk t).view.emb (ix2 p q)) 0).isLt⟩ : Fin 100000) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ((cfg0.win 1).blk t).view.emb (ix2 k q)
      = ix2 k (⟨((((cfg0.win 3).blk t).view.emb (ix2 p q)) 1).val, ((((cfg0.win 3).blk t).view.emb (ix2 p q)) 1).isLt⟩ : Fin 64) := by
    funext a; apply Fin.ext
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  exact mul_congr (congrArg (V c main_arg0) h0) (congrArg (V c main_v13) h1)

/-- What point t writes back to the second output is block t of x · W'. -/
theorem flushed4_eq (c : Dev nD) (t : Fin cfg0.N) :
    (dat0 V c).flushed 4 t = ((cfg0.win 4).blk t).view.read (Elt Ideal) (rowsTimes (V c main_arg0) (V c main_v14)) := by
  show (cfg0.win 4).cut (grid0.coords t) ((dat0 V c).after 4 t) = _
  rw [after0_4]
  unfold out0_4
  rw [View.canon_unit_zero zeroOffset]
  simp only [View.ld_unit_zero (S := S5000x128) zeroOffset, View.ld_unit_zero (S := S128x64) zeroOffset]
  obtain ⟨e00, e01, e10, e11, e20, e21, e30, e31, e40, e41⟩ := idx_facts t
  funext j
  obtain ⟨p, q, rfl⟩ : ∃ (p : Fin 5000) (q : Fin 64), j = ix2 p q := ⟨j 0, j 1, eq_ix2 j⟩
  refine (pay3_apply (iblk0 V c 0 t) (iblk0 V c 2 t) p q).trans ?_
  show _ = rowsTimes (V c main_arg0) (V c main_v14) (((cfg0.win 4).blk t).view.emb (ix2 p q))
  unfold rowsTimes
  refine Finset.sum_congr rfl fun k _ => ?_
  have h0 : ((cfg0.win 0).blk t).view.emb (ix2 p k)
      = ix2 (⟨((((cfg0.win 4).blk t).view.emb (ix2 p q)) 0).val, ((((cfg0.win 4).blk t).view.emb (ix2 p q)) 0).isLt⟩ : Fin 100000) k := by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  have h1 : ((cfg0.win 2).blk t).view.emb (ix2 k q)
      = ix2 k (⟨((((cfg0.win 4).blk t).view.emb (ix2 p q)) 1).val, ((((cfg0.win 4).blk t).view.emb (ix2 p q)) 1).isLt⟩ : Fin 64) := by
    funext a; apply Fin.ext
    match a with
    | ⟨0, _⟩ => show win0_2.index t (0 : Fin 2) * 128 + 1 * k.val = k.val; omega
    | ⟨1, _⟩ => show win0_2.index t (1 : Fin 2) * 64 + 1 * q.val = win0_4.index t (1 : Fin 2) * 64 + 1 * q.val; omega
  exact mul_congr (congrArg (V c main_arg0) h0) (congrArg (V c main_v14) h1)

/-- An index of the first output is in point t's block iff each coordinate is in the block's range. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v15_0).slice (win0_3.rect t)).set ↔ _
  rw [View.set_slice_whole, Rect.mem_set_unit]
  exact Iff.rfl

theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v15_1).slice (win0_4.rect t)).set ↔ _
  rw [View.set_slice_whole, Rect.mem_set_unit]
  exact Iff.rfl

/-- Row n is in block n / 5000: the 20 blocks cover the first output. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_blk3]
  obtain ⟨e00, e01, e10, e11, e20, e21, e30, e31, e40, e41⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e31]; omega

theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_4 _, ?_⟩
  rw [mem_blk4]
  obtain ⟨e00, e01, e10, e11, e20, e21, e30, e31, e40, e41⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e40]; show (i 0).val / 5000 * 5000 ≤ (i 0).val ∧ (i 0).val < (i 0).val / 5000 * 5000 + 5000; omega
  | ⟨1, _⟩ =>
    show win0_4.index _ (1 : Fin 2) * 64 ≤ (i 1).val ∧ (i 1).val < win0_4.index _ (1 : Fin 2) * 64 + 64
    rw [e41]; omega

/-- THE FIRST OUTPUT after the region: x · W, W the region's second operand as entered. -/
theorem final3 (c : Dev nD) : (dat0 V c).arrAt 3 cfg0.N = rowsTimes (V c main_arg0) (V c main_v13) :=
  (dat0 V c).arrAt_eq_of_cover 3 (rowsTimes (V c main_arg0) (V c main_v13)) (fun t _ => flushed3_eq V c t) cover3

/-- THE SECOND OUTPUT after the region: x · W', W' the region's third operand as entered. -/
theorem final4 (c : Dev nD) : (dat0 V c).arrAt 4 cfg0.N = rowsTimes (V c main_arg0) (V c main_v14) :=
  (dat0 V c).arrAt_eq_of_cover 4 (rowsTimes (V c main_arg0) (V c main_v14)) (fun t _ => flushed4_eq V c t) cover4

end Cert.KernelIdeal.RegionProject

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.RegionFinish.lean ====
/-
  The second kernel region: the first layer's combine.

  The region walks the 100000 nodes in 20 blocks of 5000. At every block the body takes the block's rows of the
  aggregated messages, scales each row by that node's reciprocal degree (a one-column array, repeated along the
  row), adds the block's rows of the root projection and then the bias row (one row, repeated down the block), and
  clamps below at the zero word. Every operation is entrywise, so whatever the arrays hold when the region is
  entered, the output ends holding, at (n, f),

      max ((msg(n, f) · inv(n) + r(n, f)) + b(f)) 0

  for all 100000 rows: row n lies in block n / 5000 and the 20 blocks tile the rows.
-/
import proofs.«129659_j90452011254251_2_alg».proof.Proof.Gen.KernelIdeal.Frame
import proofs.«129659_j90452011254251_2_alg».proof.Proof.LibRowwise
import Idealize.ShloMosaic.Lib.ValueLayout
import Idealize.ShloMosaic.Lib.Pipeline.Value
import Idealize.ShloMosaic.Lib.ValueIdx

set_option maxRecDepth 16384

noncomputable section

namespace Cert.KernelIdeal.RegionFinish

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- Scale by the reciprocal degree, add the root term and the bias, clamp below at the zero word. -/
def finishOf (msg r : S100000x64.Idx → EReal) (inv : S100000x1.Idx → EReal) (b : S1x64.Idx → EReal) : S100000x64.Idx → EReal :=
  fun i => max ((msg i * inv (ix2 (⟨(i 0).val, (i 0).isLt⟩ : Fin 100000) (0 : Fin 1)) + r i)
      + b (ix2 (0 : Fin 1) (⟨(i 1).val, (i 1).isLt⟩ : Fin 64))) (Ideal.ofBits .f32 0x00000000#32)

theorem zeroOffset : (![0, 0] : Fin 2 → Nat) = fun _ => 0 := funext fun a => by fin_cases a <;> rfl

/-- Equal entries, equal combines. -/
theorem finish_congr {a0 a1 a2 a3 b0 b1 b2 b3 z : EReal} (h0 : a0 = b0) (h1 : a1 = b1) (h2 : a2 = b2) (h3 : a3 = b3) :
    max ((a0 * a2 + a1) + a3) z = max ((b0 * b2 + b1) + b3) z := by subst h0 h1 h2 h3; rfl

/-- One block of the body, entry by entry. -/
theorem pay1_apply (v0 : Vec Ideal S5000x64 .f32) (v2 : Vec Ideal S5000x1 .f32) (v6 : Vec Ideal S5000x64 .f32) (v9 : Vec Ideal S1x64 .f32)
    (p : Fin 5000) (q : Fin 64) :
    k1_pay1 (F := Ideal) v0 v2 v6 v9 (ix2 p q)
      = max ((v0 (ix2 p q) * v2 (ix2 p (0 : Fin 1)) + v6 (ix2 p q)) + v9 (ix2 (0 : Fin 1) q)) (Ideal.ofBits .f32 0x00000000#32) := by
  unfold k1_pay1
  simp only [shapeCast_self]
  rw [maximumf_apply, addf_apply, addf_apply, mulf_apply, broadcast_apply]
  rw [Cert.LibRowwise.broadcastTo_a1_ab_apply (a := 5000) (b := 64) v2 broadcasts_S5000x1_S5000x64 p q,
    broadcastTo_1b_ab_apply (a := 5000) (b := 64) v9 broadcasts_S1x64_S5000x64 p q]
  rfl

/-- The printed index maps over the grid: the row-blocked windows sit at block t, the bias row at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point t writes back is block t of the combine of the arrays as entered. -/
theorem flushed4_eq (c : Dev nD) (t : Fin cfg1.N) :
    (dat1 V c).flushed 4 t = ((cfg1.win 4).blk t).view.read (Elt Ideal)
      (finishOf (V c main_v25) (V c main_v15_1) (V c main_v12) (V c main_v26)) := by
  show (cfg1.win 4).cut (grid1.coords t) ((dat1 V c).after 4 t) = _
  rw [after1_4]
  unfold out1_4
  rw [View.canon_unit_zero zeroOffset]
  simp only [View.ld_unit_zero (S := S5000x64) zeroOffset, View.ld_unit_zero (S := S5000x1) zeroOffset, View.ld_unit_zero (S := S1x64) zeroOffset]
  obtain ⟨e00, e01, e10, e11, e20, e21, e30, e31, e40, e41⟩ := idx_facts t
  funext j
  obtain ⟨p, q, rfl⟩ : ∃ (p : Fin 5000) (q : Fin 64), j = ix2 p q := ⟨j 0, j 1, eq_ix2 j⟩
  refine (pay1_apply (iblk1 V c 0 t) (iblk1 V c 2 t) (iblk1 V c 1 t) (iblk1 V c 3 t) p q).trans ?_
  show _ = finishOf (V c main_v25) (V c main_v15_1) (V c main_v12) (V c main_v26) (((cfg1.win 4).blk t).view.emb (ix2 p q))
  unfold finishOf
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1))
      = ix2 (⟨((((cfg1.win 4).blk t).view.emb (ix2 p q)) 0).val, ((((cfg1.win 4).blk t).view.emb (ix2 p q)) 0).isLt⟩ : Fin 100000) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q)
      = ix2 (0 : Fin 1) (⟨((((cfg1.win 4).blk t).view.emb (ix2 p q)) 1).val, ((((cfg1.win 4).blk t).view.emb (ix2 p q)) 1).isLt⟩ : Fin 64) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  exact finish_congr (congrArg (V c main_v25) h0) (congrArg (V c main_v15_1) h1) (congrArg (V c main_v12) h2) (congrArg (V c main_v26) h3)

/-- An index of the output is in point t's block iff each coordinate is in the block's range. -/
theorem mem_blk4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v27).slice (win1_4.rect t)).set ↔ _
  rw [View.set_slice_whole, Rect.mem_set_unit]
  exact Iff.rfl

/-- Row n is in block n / 5000: the 20 blocks cover the output. -/
theorem cover4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_4 _, ?_⟩
  rw [mem_blk4]
  obtain ⟨e00, e01, e10, e11, e20, e21, e30, e31, e40, e41⟩ := idx_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e41]; omega

/-- THE OUTPUT after the region: the combine of the region's four operands as entered. -/
theorem final4 (c : Dev nD) : (dat1 V c).arrAt 4 cfg1.N = finishOf (V c main_v25) (V c main_v15_1) (V c main_v12) (V c main_v26) :=
  (dat1 V c).arrAt_eq_of_cover 4 _ (fun t _ => flushed4_eq V c t) cover4

end Cert.KernelIdeal.RegionFinish

end
-- ==== Proof.RegionCombine.lean ====
/-
  The third kernel region: the second layer's combine.

  The region walks the 100000 nodes in 20 blocks of 5000. At every block the body scales each row of the block's
  aggregated messages by that node's reciprocal degree, multiplies the scaled rows by the whole 64 × 64 matrix W_l
  and the block's rows of the features h by the whole 64 × 64 matrix W_r (both products into a zero accumulator;
  rounding the operands to bfloat16 is the identity on the extended reals), adds the two products and then the bias
  row, and clamps below at the zero word. So, whatever the arrays hold when the region is entered, the output ends
  holding, at (n, f),

      max (((Σ_k (msg(n, k) · inv(n)) · W_l(k, f)) + Σ_k h(n, k) · W_r(k, f)) + b(f)) 0

  for all 100000 rows: row n lies in block n / 5000, the 20 blocks tile the rows, and entry (n, f) reads row n of
  msg and of h only.
-/
import proofs.«129659_j90452011254251_2_alg».proof.Proof.Gen.KernelIdeal.Frame
import proofs.«129659_j90452011254251_2_alg».proof.Proof.LibRowwise
import Idealize.ShloMosaic.Lib.ValueLayout
import proofs.«129659_j90452011254251_2_alg».proof.Proof.LibMatmul2d
import Idealize.ShloMosaic.Lib.Pipeline.Value
import Idealize.ShloMosaic.Lib.ValueIdx

set_option maxRecDepth 16384

noncomputable section

namespace Cert.KernelIdeal.RegionCombine

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- Scale by the reciprocal degree, project, add the root projection and the bias, clamp below at the zero word. -/
def combineOf (msg h : S100000x64.Idx → EReal) (inv : S100000x1.Idx → EReal) (wl wr : S64x64.Idx → EReal) (b : S1x64.Idx → EReal) :
    S100000x64.Idx → EReal :=
  fun i => max (((∑ k : Fin 64, (msg (ix2 (⟨(i 0).val, (i 0).isLt⟩ : Fin 100000) k) * inv (ix2 (⟨(i 0).val, (i 0).isLt⟩ : Fin 100000) (0 : Fin 1)))
          * wl (ix2 k (⟨(i 1).val, (i 1).isLt⟩ : Fin 64)))
        + ∑ k : Fin 64, h (ix2 (⟨(i 0).val, (i 0).isLt⟩ : Fin 100000) k) * wr (ix2 k (⟨(i 1).val, (i 1).isLt⟩ : Fin 64)))
      + b (ix2 (0 : Fin 1) (⟨(i 1).val, (i 1).isLt⟩ : Fin 64))) (Ideal.ofBits .f32 0x00000000#32)

theorem zeroOffset : (![0, 0] : Fin 2 → Nat) = fun _ => 0 := funext fun a => by fin_cases a <;> rfl

/-- Equal entries, equal combines. -/
theorem combine_congr {ι : Type} [Fintype ι] {a0 a1 a2 a3 b0 b1 b2 b3 : ι → EReal} {s s' a4 b4 z : EReal}
    (h0 : ∀ k, a0 k = b0 k) (hs : s = s') (h1 : ∀ k, a1 k = b1 k) (h2 : ∀ k, a2 k = b2 k) (h3 : ∀ k, a3 k = b3 k) (h4 : a4 = b4) :
    max (((∑ k, (a0 k * s) * a1 k) + ∑ k, a2 k * a3 k) + a4) z = max (((∑ k, (b0 k * s') * b1 k) + ∑ k, b2 k * b3 k) + b4) z := by
  have e0 : a0 = b0 := funext h0
  have e1 : a1 = b1 := funext h1
  have e2 : a2 = b2 := funext h2
  have e3 : a3 = b3 := funext h3
  subst e0 e1 e2 e3 hs h4; rfl

/-- One block of the body, entry by entry. -/
theorem pay1_apply (v0 : Vec Ideal S5000x64 .f32) (v2 : Vec Ideal S5000x1 .f32) (v7 : Vec Ideal S5000x64 .f32)
    (v10 v13 : Vec Ideal S64x64 .f32) (v19 : Vec Ideal S1x64 .f32) (p : Fin 5000) (q : Fin 64) :
    k2_pay1 (F := Ideal) v0 v2 v7 v10 v13 v19 (ix2 p q)
      = max (((∑ k : Fin 64, (v0 (ix2 p k) * v2 (ix2 p (0 : Fin 1))) * v10 (ix2 k q)) + ∑ k : Fin 64, v7 (ix2 p k) * v13 (ix2 k q))
          + v19 (ix2 (0 : Fin 1) q)) (Ideal.ofBits .f32 0x00000000#32) := by
  unfold k2_pay1
  simp only [shapeCast_self]
  rw [maximumf_apply, addf_apply, addf_apply, broadcast_apply]
  rw [broadcastTo_1b_ab_apply (a := 5000) (b := 64) v19 broadcasts_S1x64_S5000x64 p q]
  have e1 : matmul (F := Ideal) dot_S5000x64_S64x64_S5000x64_1_0_0_1_n_n none
        (truncf .bf16 (mulf v0 (broadcastTo S5000x64 v2 broadcasts_S5000x1_S5000x64)) bitsLt_bf16_f32) (truncf .bf16 v10 bitsLt_bf16_f32)
        (constant S5000x64 .f32 0x00000000#32) (ix2 p q)
      = ∑ k : Fin 64, (v0 (ix2 p k) * v2 (ix2 p (0 : Fin 1))) * v10 (ix2 k q) := by
    refine (Cert.LibMatmul2d.matmul_plain_apply (M := 5000) (K := 64) (N := 64) (φ₁ := .bf16) (φ₂ := .bf16)
      (truncf .bf16 (mulf v0 (broadcastTo S5000x64 v2 broadcasts_S5000x1_S5000x64)) bitsLt_bf16_f32) (truncf .bf16 v10 bitsLt_bf16_f32) p q).trans ?_
    refine Finset.sum_congr rfl fun k _ => ?_
    rw [truncf_apply, truncf_apply, mulf_apply,
      Cert.LibRowwise.broadcastTo_a1_ab_apply (a := 5000) (b := 64) v2 broadcasts_S5000x1_S5000x64 p k]
  have e2 : matmul (F := Ideal) dot_S5000x64_S64x64_S5000x64_1_0_0_1_n_n none
        (truncf .bf16 v7 bitsLt_bf16_f32) (truncf .bf16 v13 bitsLt_bf16_f32)
        (constant S5000x64 .f32 0x00000000#32) (ix2 p q)
      = ∑ k : Fin 64, v7 (ix2 p k) * v13 (ix2 k q) :=
    Cert.LibMatmul2d.matmul_plain_apply (M := 5000) (K := 64) (N := 64) (φ₁ := .bf16) (φ₂ := .bf16)
      (truncf .bf16 v7 bitsLt_bf16_f32) (truncf .bf16 v13 bitsLt_bf16_f32) p q
  rw [e1, e2]
  rfl

/-- The printed index maps over the grid: the row-blocked windows sit at block t, the matrices and the bias row at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- What point t writes back is block t of the combine of the arrays as entered. -/
theorem flushed6_eq (c : Dev nD) (t : Fin cfg2.N) :
    (dat2 V c).flushed 6 t = ((cfg2.win 6).blk t).view.read (Elt Ideal)
      (combineOf (V c main_v37) (V c main_v27) (V c main_v12) (V c main_v38) (V c main_v39) (V c main_v40)) := by
  show (cfg2.win 6).cut (grid2.coords t) ((dat2 V c).after 6 t) = _
  rw [after2_6]
  unfold out2_6
  rw [View.canon_unit_zero zeroOffset]
  simp only [View.ld_unit_zero (S := S5000x64) zeroOffset, View.ld_unit_zero (S := S5000x1) zeroOffset,
    View.ld_unit_zero (S := S64x64) zeroOffset, View.ld_unit_zero (S := S1x64) zeroOffset]
  obtain ⟨e00, e01, e10, e11, e20, e21, e30, e31, e40, e41, e50, e51, e60, e61⟩ := idx_facts t
  funext j
  obtain ⟨p, q, rfl⟩ : ∃ (p : Fin 5000) (q : Fin 64), j = ix2 p q := ⟨j 0, j 1, eq_ix2 j⟩
  refine (pay1_apply (iblk2 V c 0 t) (iblk2 V c 2 t) (iblk2 V c 1 t) (iblk2 V c 3 t) (iblk2 V c 4 t) (iblk2 V c 5 t) p q).trans ?_
  show _ = combineOf (V c main_v37) (V c main_v27) (V c main_v12) (V c main_v38) (V c main_v39) (V c main_v40) (((cfg2.win 6).blk t).view.emb (ix2 p q))
  unfold combineOf
  have h0 : ∀ k : Fin 64, ((cfg2.win 0).blk t).view.emb (ix2 p k)
      = ix2 (⟨((((cfg2.win 6).blk t).view.emb (ix2 p q)) 0).val, ((((cfg2.win 6).blk t).view.emb (ix2 p q)) 0).isLt⟩ : Fin 100000) k := by
    intro k; funext a; apply Fin.ext
    match a with
    | ⟨0, _⟩ => show win2_0.index t (0 : Fin 2) * 5000 + 1 * p.val = win2_6.index t (0 : Fin 2) * 5000 + 1 * p.val; omega
    | ⟨1, _⟩ => show win2_0.index t (1 : Fin 2) * 64 + 1 * k.val = k.val; omega
  have h1 : ∀ k : Fin 64, ((cfg2.win 1).blk t).view.emb (ix2 p k)
      = ix2 (⟨((((cfg2.win 6).blk t).view.emb (ix2 p q)) 0).val, ((((cfg2.win 6).blk t).view.emb (ix2 p q)) 0).isLt⟩ : Fin 100000) k := by
    intro k; funext a; apply Fin.ext
    match a with
    | ⟨0, _⟩ => show win2_1.index t (0 : Fin 2) * 5000 + 1 * p.val = win2_6.index t (0 : Fin 2) * 5000 + 1 * p.val; omega
    | ⟨1, _⟩ => show win2_1.index t (1 : Fin 2) * 64 + 1 * k.val = k.val; omega
  have h2 : ((cfg2.win 2).blk t).view.emb (ix2 p (0 : Fin 1))
      = ix2 (⟨((((cfg2.win 6).blk t).view.emb (ix2 p q)) 0).val, ((((cfg2.win 6).blk t).view.emb (ix2 p q)) 0).isLt⟩ : Fin 100000) (0 : Fin 1) := by
    funext a; apply Fin.ext
    match a with
    | ⟨0, _⟩ => show win2_2.index t (0 : Fin 2) * 5000 + 1 * p.val = win2_6.index t (0 : Fin 2) * 5000 + 1 * p.val; omega
    | ⟨1, _⟩ => show win2_2.index t (1 : Fin 2) * 1 + 1 * 0 = 0; omega
  have h3 : ∀ k : Fin 64, ((cfg2.win 3).blk t).view.emb (ix2 k q)
      = ix2 k (⟨((((cfg2.win 6).blk t).view.emb (ix2 p q)) 1).val, ((((cfg2.win 6).blk t).view.emb (ix2 p q)) 1).isLt⟩ : Fin 64) := by
    intro k; funext a; apply Fin.ext
    match a with
    | ⟨0, _⟩ => show win2_3.index t (0 : Fin 2) * 64 + 1 * k.val = k.val; omega
    | ⟨1, _⟩ => show win2_3.index t (1 : Fin 2) * 64 + 1 * q.val = win2_6.index t (1 : Fin 2) * 64 + 1 * q.val; omega
  have h4 : ∀ k : Fin 64, ((cfg2.win 4).blk t).view.emb (ix2 k q)
      = ix2 k (⟨((((cfg2.win 6).blk t).view.emb (ix2 p q)) 1).val, ((((cfg2.win 6).blk t).view.emb (ix2 p q)) 1).isLt⟩ : Fin 64) := by
    intro k; funext a; apply Fin.ext
    match a with
    | ⟨0, _⟩ => show win2_4.index t (0 : Fin 2) * 64 + 1 * k.val = k.val; omega
    | ⟨1, _⟩ => show win2_4.index t (1 : Fin 2) * 64 + 1 * q.val = win2_6.index t (1 : Fin 2) * 64 + 1 * q.val; omega
  have h5 : ((cfg2.win 5).blk t).view.emb (ix2 (0 : Fin 1) q)
      = ix2 (0 : Fin 1) (⟨((((cfg2.win 6).blk t).view.emb (ix2 p q)) 1).val, ((((cfg2.win 6).blk t).view.emb (ix2 p q)) 1).isLt⟩ : Fin 64) := by
    funext a; apply Fin.ext
    match a with
    | ⟨0, _⟩ => show win2_5.index t (0 : Fin 2) * 1 + 1 * 0 = 0; omega
    | ⟨1, _⟩ => show win2_5.index t (1 : Fin 2) * 64 + 1 * q.val = win2_6.index t (1 : Fin 2) * 64 + 1 * q.val; omega
  exact combine_congr (fun k => congrArg (V c main_v37) (h0 k)) (congrArg (V c main_v12) h2)
    (fun k => congrArg (V c main_v38) (h3 k)) (fun k => congrArg (V c main_v27) (h1 k)) (fun k => congrArg (V c main_v39) (h4 k))
    (congrArg (V c main_v40) h5)

/-- An index of the output is in point t's block iff each coordinate is in the block's range. -/
theorem mem_blk6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v41).slice (win2_6.rect t)).set ↔ _
  rw [View.set_slice_whole, Rect.mem_set_unit]
  exact Iff.rfl

/-- Row n is in block n / 5000: the 20 blocks cover the output. -/
theorem cover6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  rw [mem_blk6]
  obtain ⟨e00, e01, e10, e11, e20, e21, e30, e31, e40, e41, e50, e51, e60, e61⟩ := idx_facts ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e60]; show (i 0).val / 5000 * 5000 ≤ (i 0).val ∧ (i 0).val < (i 0).val / 5000 * 5000 + 5000; omega
  | ⟨1, _⟩ =>
    show win2_6.index _ (1 : Fin 2) * 64 ≤ (i 1).val ∧ (i 1).val < win2_6.index _ (1 : Fin 2) * 64 + 64
    rw [e61]; omega

/-- THE OUTPUT after the region: the combine of the region's six operands as entered. -/
theorem final6 (c : Dev nD) : (dat2 V c).arrAt 6 cfg2.N
    = combineOf (V c main_v37) (V c main_v27) (V c main_v12) (V c main_v38) (V c main_v39) (V c main_v40) :=
  (dat2 V c).arrAt_eq_of_cover 6 _ (fun t _ => flushed6_eq V c t) cover6

end Cert.KernelIdeal.RegionCombine

end
-- ==== Proof.LinkDecode.lean ====
/-
  The link decoder, shared by both programs: from the node embeddings z (100000 × 64) and the two vectors of query
  node numbers, the score of query q is the logistic function of the inner product of the two addressed rows,

      1 / (1 + exp (−Σ_f z(s q, f) · z(t q, f))),

  a node number read signed, a negative one first shifted up by the number of nodes, then clamped into the table by
  the lookup. Both programs spell it with the same operations in the same order, so it is kept as ONE function of z
  and never opened: the two programs agree as soon as their embeddings do.
-/
import proofs.«129659_j90452011254251_2_alg».proof.Proof.Gen.ReferenceIdeal.Read

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

/-- The decoder as the programs spell it. -/
def decode (z : (⟨S100000x64, .f32⟩ : BufTy).Contents (Elt Ideal)) (x2 x3 : (⟨S200000, .i32⟩ : BufTy).Contents (Elt Ideal)) :
    (⟨S200000, .f32⟩ : BufTy).Contents (Elt Ideal) :=
  Host.divf (F := Ideal) (broadcastInDim S200000 ![] bcast_S_S200000 (constant (F := Ideal) S_ .f32 0x3F800000#32)) (addf (F := Ideal) (broadcastInDim S200000 ![] bcast_S_S200000 (constant (F := Ideal) S_ .f32 0x3F800000#32)) (Host.exp (F := Ideal) (Host.negf (F := Ideal) (Host.reduceAdd (F := Ideal) (mulf (F := Ideal) (Host.gather gather_S100000x64_S200000x1_S200000x64_1_0_n_n_0_1_164 (z) (broadcastInDim S200000x1 ![0] bcast_S200000_S200000x1_0 (select (cmpi .slt (x2) (broadcastInDim S200000 ![] bcast_S_S200000 (constantI S_ 32 0#32))) (addi (x2) (broadcastInDim S200000 ![] bcast_S_S200000 (constantI S_ 32 100000#32))) (x2)))) (Host.gather gather_S100000x64_S200000x1_S200000x64_1_0_n_n_0_1_164 (z) (broadcastInDim S200000x1 ![0] bcast_S200000_S200000x1_0 (select (cmpi .slt (x3) (broadcastInDim S200000 ![] bcast_S_S200000 (constantI S_ 32 0#32))) (addi (x3) (broadcastInDim S200000 ![] bcast_S_S200000 (constantI S_ 32 100000#32))) (x3))))) (constant (F := Ideal) S_ .f32 0x00000000#32) reducesTo_S200000x64_S200000_d1 h_S_))))

/-- The reference's result is the decoder of its embeddings. -/
theorem result_eq_decode (x0 : (⟨S100000x128, .f32⟩ : BufTy).Contents (Elt Ideal)) (x1 : (⟨S2x1600000, .i32⟩ : BufTy).Contents (Elt Ideal))
    (x2 x3 : (⟨S200000, .i32⟩ : BufTy).Contents (Elt Ideal)) (x4 : (⟨S64x128, .f32⟩ : BufTy).Contents (Elt Ideal))
    (x5 : (⟨S64, .f32⟩ : BufTy).Contents (Elt Ideal)) (x6 : (⟨S64x128, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) :
    val_main_v79 (F := Ideal) x0 x1 x2 x3 x4 x5 x6 x7 x8 x9 = decode (val_main_v57 (F := Ideal) x0 x1 x4 x5 x6 x7 x8 x9) x2 x3 := rfl

end Cert.ReferenceIdeal.RefValue

end
-- ==== Proof.KernelTerms.lean ====
/-
  The idealized kernel's result as ONE function of its ten argument arrays.

  With s and d the source and destination node numbers of the edges (the two rows of the edge array; a negative
  source number first shifted up by the number of nodes), the kernel computes

      inv   = 1 / max (count of the edges into each node) 1                     (a one-column array)
      p, r  = x · W_l1ᵀ,  x · W_r1ᵀ                                              (first region)
      h     = max ((segsum (p[s], d) · inv + r) + b_l1) 0                        (second region)
      z     = max (((segsum (h[s], d) · inv) · W_l2ᵀ + h · W_r2ᵀ) + b_l2) 0      (third region)
      out   = decode z                                                            (the link decoder)

  where segsum (t[s], d) adds row s(e) of t into row d(e) for every edge e. The host pieces that the reference also
  computes (the node numbers, the transposed weights, the segment sum's spelling) are written through the reference's
  own stage definitions, so that the two programs' common sub-terms are the same terms.
-/
import proofs.«129659_j90452011254251_2_alg».proof.Proof.Gen.KernelIdeal.Frame
import proofs.«129659_j90452011254251_2_alg».proof.Proof.Gen.ReferenceIdeal.Read
import proofs.«129659_j90452011254251_2_alg».proof.Proof.RegionProject
import proofs.«129659_j90452011254251_2_alg».proof.Proof.RegionFinish
import proofs.«129659_j90452011254251_2_alg».proof.Proof.RegionCombine
import proofs.«129659_j90452011254251_2_alg».proof.Proof.LinkDecode

noncomputable section

namespace Cert.KernelIdeal.Terms

open Cert.KernelIdeal Cert.KernelIdeal.Gen Cert.ReferenceIdeal.Read
open Idealize.ShloMosaic Idealize.ShloMosaic.TcCoe Idealize.SL.Sem

/-- The contents of a buffer of a given shape and element type, on the extended reals. -/
abbrev Arr (s : Shape) (e : EltTy) := (⟨s, e⟩ : BufTy).Contents (Elt Ideal)

/-- One over the clamped in-degree of every node, as a column: the kernel's host spelling (a count by adding ones
    into a vector of zeros at the destination numbers, clamped below at one, inverted, laid out as [100000, 1]). -/
def invDeg (x1 : Arr S2x1600000 .i32) : Arr S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal)
        (Host.scatterAdd (F := Ideal) (φ := .f32) scatter_S100000_S1600000x1_S1600000_n_0_0_1
          (broadcastInDim S100000 ![] bcast_S_S100000 (constant (F := Ideal) S_ .f32 0x00000000#32))
          (val_main_v12 (F := Ideal) x1)
          (broadcastInDim S1600000 ![] bcast_S_S1600000 (constant (F := Ideal) S_ .f32 0x3F800000#32)))
        (broadcastInDim S100000 ![] bcast_S_S100000 (constant (F := Ideal) S_ .f32 0x3F800000#32))))

/-- segsum (t[s], d): row s(e) of a 100000 × 64 table added into row d(e), over all edges, from zeros. -/
def segsum64 (t : Arr S100000x64 .f32) (x1 : Arr S2x1600000 .i32) : Arr S100000x64 .f32 :=
  Host.scatterAdd (F := Ideal) (φ := .f32) Cert.ReferenceIdeal.scatter_S100000x64_S1600000x1_S1600000x64_1_0_0_1 (val_main_v38 (F := Ideal)) (val_main_v39 (F := Ideal) x1)
    (Host.gather Cert.ReferenceIdeal.gather_S100000x64_S1600000x1_S1600000x64_1_0_n_n_0_1_164 t (val_main_v36 (F := Ideal) x1))

/-- A bias vector as one row. -/
def biasRow (b : Arr S64 .f32) : Arr S1x64 .f32 := shapeCast S1x64 b shapeCasts_S64_S1x64

/-- The first layer's features. -/
def feat1 (x0 : Arr S100000x128 .f32) (x1 : Arr S2x1600000 .i32) (x4 : Arr S64x128 .f32) (x5 : Arr S64 .f32) (x6 : Arr S64x128 .f32) :
    Arr S100000x64 .f32 :=
  RegionFinish.finishOf (segsum64 (RegionProject.rowsTimes x0 (val_main_v22 (F := Ideal) x4)) x1)
    (RegionProject.rowsTimes x0 (val_main_v27 (F := Ideal) x6)) (invDeg x1) (biasRow x5)

/-- The second layer's embeddings, from the first layer's features. -/
def feat2 (h : Arr S100000x64 .f32) (x1 : Arr S2x1600000 .i32) (x7 : Arr S64x64 .f32) (x8 : Arr S64 .f32) (x9 : Arr S64x64 .f32) :
    Arr S100000x64 .f32 :=
  RegionCombine.combineOf (segsum64 h x1) h (invDeg x1) (val_main_v49 (F := Ideal) x7) (val_main_v54 (F := Ideal) x9) (biasRow x8)

/-- The kernel's result. -/
def out (x0 : Arr S100000x128 .f32) (x1 : Arr S2x1600000 .i32) (x2 x3 : Arr S200000 .i32) (x4 : Arr S64x128 .f32) (x5 : Arr S64 .f32)
    (x6 : Arr S64x128 .f32) (x7 : Arr S64x64 .f32) (x8 : Arr S64 .f32) (x9 : Arr S64x64 .f32) : Arr S200000 .f32 :=
  Cert.ReferenceIdeal.RefValue.decode (feat2 (feat1 x0 x1 x4 x5 x6) x1 x7 x8 x9) x2 x3

end Cert.KernelIdeal.Terms

end
-- ==== Proof.KernelFold.lean ====
/-
  The idealized kernel's result buffer, read through @main's seven segments.

  @main alternates four stretches of host operations with three kernel regions. The buffer contents at each of the
  seven boundaries are a fold from the launch memory: a host stretch leaves each buffer it writes at its operations'
  term of the buffers they read and every other buffer untouched; a region leaves each of its output arrays at what
  its write-backs add up to — one whole-array function of the region's operands as entered, by the three region
  modules — and every other buffer untouched. Reading the fold one boundary at a time, each buffer that a later
  segment needs is a pure term of the ten argument arrays, and the result buffer is `Terms.out` of them.
-/
import proofs.«129659_j90452011254251_2_alg».proof.Proof.Gen.KernelIdeal.Frame
import proofs.«129659_j90452011254251_2_alg».proof.Proof.Gen.ReferenceIdeal.Read
import proofs.«129659_j90452011254251_2_alg».proof.Proof.KernelTerms
import Idealize.ShloMosaic.Lib.StableHlo.Run

set_option maxRecDepth 16384

noncomputable section

namespace Cert.KernelIdeal.Fold

open Cert.KernelIdeal Cert.KernelIdeal.Gen Cert.KernelIdeal.Terms Cert.ReferenceIdeal.Read
open Idealize.ShloMosaic Idealize.ShloMosaic.TcCoe Idealize.SL.Sem Idealize.ShloMosaic.StableHlo

/-- Equal operands, equal results (four operands). -/
theorem congr4 {α β γ δ ε : Sort*} (f : α → β → γ → δ → ε) {a a' : α} {b b' : β} {c c' : γ} {d d' : δ}
    (h1 : a = a') (h2 : b = b') (h3 : c = c') (h4 : d = d') : f a b c d = f a' b' c' d' := by
  subst h1 h2 h3 h4; rfl

/-- Equal operands, equal results (six operands). -/
theorem congr6 {α β γ δ ε ζ η : Sort*} (f : α → β → γ → δ → ε → ζ → η) {a a' : α} {b b' : β} {c c' : γ} {d d' : δ} {e e' : ε} {g g' : ζ}
    (h1 : a = a') (h2 : b = b') (h3 : c = c') (h4 : d = d') (h5 : e = e') (h6 : g = g') : f a b c d e g = f a' b' c' d' e' g' := by
  subst h1 h2 h3 h4 h5 h6; rfl

/-- A segment sum spelled on the kernel's side, its three operands given by equations. -/
theorem segsum_leaves {d s : Arr S1600000 .i32} {t T : Arr S100000x64 .f32} {x1 : Arr S2x1600000 .i32}
    (hd : d = val_main_v3 (F := Ideal) x1) (ht : t = T) (hs : s = val_main_v1 (F := Ideal) x1) :
    Host.scatterAdd (F := Ideal) (φ := .f32) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 d)
      (Host.gather gather_S100000x64_S1600000x1_S1600000x64_1_0_n_n_0_1_164 t
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      = segsum64 T x1 := by
  subst hd ht hs; rfl

/-- The decoder spelled on the kernel's side, its three operands given by equations. -/
theorem decode_leaves {z Z : Arr S100000x64 .f32} {x2 X2 x3 X3 : Arr S200000 .i32} (hz : z = Z) (h2 : x2 = X2) (h3 : x3 = X3) :
    Host.divf (F := Ideal) (broadcastInDim S200000 ![] bcast_S_S200000 (constant (F := Ideal) S_ .f32 0x3F800000#32)) (addf (F := Ideal) (broadcastInDim S200000 ![] bcast_S_S200000 (constant (F := Ideal) S_ .f32 0x3F800000#32)) (Host.exp (F := Ideal) (Host.negf (F := Ideal) (Host.reduceAdd (F := Ideal) (mulf (F := Ideal) (Host.gather gather_S100000x64_S200000x1_S200000x64_1_0_n_n_0_1_164 (z) (broadcastInDim S200000x1 ![0] bcast_S200000_S200000x1_0 (select (cmpi .slt (x2) (broadcastInDim S200000 ![] bcast_S_S200000 (constantI S_ 32 0#32))) (addi (x2) (broadcastInDim S200000 ![] bcast_S_S200000 (constantI S_ 32 100000#32))) (x2)))) (Host.gather gather_S100000x64_S200000x1_S200000x64_1_0_n_n_0_1_164 (z) (broadcastInDim S200000x1 ![0] bcast_S200000_S200000x1_0 (select (cmpi .slt (x3) (broadcastInDim S200000 ![] bcast_S_S200000 (constantI S_ 32 0#32))) (addi (x3) (broadcastInDim S200000 ![] bcast_S_S200000 (constantI S_ 32 100000#32))) (x3))))) (constant (F := Ideal) S_ .f32 0x00000000#32) reducesTo_S200000x64_S200000_d1 h_S_))))
      = Cert.ReferenceIdeal.RefValue.decode Z X2 X3 := by
  subst hz h2 h3; rfl

variable (m : (ℓ : Loc nD τ sig) → Buf (Elt Ideal) ℓ) (ρ : Dev nD → PrngReg) (c : Dev nD)

/-! ## After the first stretch of host operations (the first region's entry) -/

theorem W1_main_arg0 : W1 m ρ c (Proc.devRef .tc main_arg0) = (m ((c : Thread nD τ).loc main_arg0)) := by
  show StableHlo.after hostOps0 _ (Proc.devRef .tc main_arg0) = _
  after_results
  all_goals rfl

theorem W1_main_v1 : W1 m ρ c (Proc.devRef .tc main_v1) = val_main_v1 (F := Ideal) (m ((c : Thread nD τ).loc main_arg1)) := by
  show StableHlo.after hostOps0 _ (Proc.devRef .tc main_v1) = _
  after_results
  all_goals rfl

theorem W1_main_v3 : W1 m ρ c (Proc.devRef .tc main_v3) = val_main_v3 (F := Ideal) (m ((c : Thread nD τ).loc main_arg1)) := by
  show StableHlo.after hostOps0 _ (Proc.devRef .tc main_v3) = _
  after_results
  all_goals rfl

theorem W1_main_v12 : W1 m ρ c (Proc.devRef .tc main_v12) = invDeg (m ((c : Thread nD τ).loc main_arg1)) := by
  show StableHlo.after hostOps0 _ (Proc.devRef .tc main_v12) = _
  after_results
  all_goals rfl

theorem W1_main_v13 : W1 m ρ c (Proc.devRef .tc main_v13) = val_main_v22 (F := Ideal) (m ((c : Thread nD τ).loc main_arg4)) := by
  show StableHlo.after hostOps0 _ (Proc.devRef .tc main_v13) = _
  after_results
  all_goals rfl

theorem W1_main_v14 : W1 m ρ c (Proc.devRef .tc main_v14) = val_main_v27 (F := Ideal) (m ((c : Thread nD τ).loc main_arg6)) := by
  show StableHlo.after hostOps0 _ (Proc.devRef .tc main_v14) = _
  after_results
  all_goals rfl

theorem W1_main_arg5 : W1 m ρ c (Proc.devRef .tc main_arg5) = (m ((c : Thread nD τ).loc main_arg5)) := by
  show StableHlo.after hostOps0 _ (Proc.devRef .tc main_arg5) = _
  after_results
  all_goals rfl

theorem W1_main_arg7 : W1 m ρ c (Proc.devRef .tc main_arg7) = (m ((c : Thread nD τ).loc main_arg7)) := by
  show StableHlo.after hostOps0 _ (Proc.devRef .tc main_arg7) = _
  after_results
  all_goals rfl

theorem W1_main_arg8 : W1 m ρ c (Proc.devRef .tc main_arg8) = (m ((c : Thread nD τ).loc main_arg8)) := by
  show StableHlo.after hostOps0 _ (Proc.devRef .tc main_arg8) = _
  after_results
  all_goals rfl

theorem W1_main_arg9 : W1 m ρ c (Proc.devRef .tc main_arg9) = (m ((c : Thread nD τ).loc main_arg9)) := by
  show StableHlo.after hostOps0 _ (Proc.devRef .tc main_arg9) = _
  after_results
  all_goals rfl

theorem W1_main_arg2 : W1 m ρ c (Proc.devRef .tc main_arg2) = (m ((c : Thread nD τ).loc main_arg2)) := by
  show StableHlo.after hostOps0 _ (Proc.devRef .tc main_arg2) = _
  after_results
  all_goals rfl

theorem W1_main_arg3 : W1 m ρ c (Proc.devRef .tc main_arg3) = (m ((c : Thread nD τ).loc main_arg3)) := by
  show StableHlo.after hostOps0 _ (Proc.devRef .tc main_arg3) = _
  after_results
  all_goals rfl

/-! ## After the first region -/

theorem W2_main_v15_0 : W2 m ρ c (Proc.devRef .tc main_v15_0) = RegionProject.rowsTimes (m ((c : Thread nD τ).loc main_arg0)) (val_main_v22 (F := Ideal) (m ((c : Thread nD τ).loc main_arg4))) :=
  (W2_arr m ρ c 3).trans ((RegionProject.final3 (V1 m ρ) c).trans (congrArg₂ RegionProject.rowsTimes (W1_main_arg0 m ρ c) (W1_main_v13 m ρ c)))

theorem W2_main_v15_1 : W2 m ρ c (Proc.devRef .tc main_v15_1) = RegionProject.rowsTimes (m ((c : Thread nD τ).loc main_arg0)) (val_main_v27 (F := Ideal) (m ((c : Thread nD τ).loc main_arg6))) :=
  (W2_arr m ρ c 4).trans ((RegionProject.final4 (V1 m ρ) c).trans (congrArg₂ RegionProject.rowsTimes (W1_main_arg0 m ρ c) (W1_main_v14 m ρ c)))

theorem W2_main_v1 : W2 m ρ c (Proc.devRef .tc main_v1) = val_main_v1 (F := Ideal) (m ((c : Thread nD τ).loc main_arg1)) :=
  (W2_of_ne m ρ c main_v1 (by decide)).trans (W1_main_v1 m ρ c)

theorem W2_main_v3 : W2 m ρ c (Proc.devRef .tc main_v3) = val_main_v3 (F := Ideal) (m ((c : Thread nD τ).loc main_arg1)) :=
  (W2_of_ne m ρ c main_v3 (by decide)).trans (W1_main_v3 m ρ c)

theorem W2_main_v12 : W2 m ρ c (Proc.devRef .tc main_v12) = invDeg (m ((c : Thread nD τ).loc main_arg1)) :=
  (W2_of_ne m ρ c main_v12 (by decide)).trans (W1_main_v12 m ρ c)

theorem W2_main_arg5 : W2 m ρ c (Proc.devRef .tc main_arg5) = (m ((c : Thread nD τ).loc main_arg5)) :=
  (W2_of_ne m ρ c main_arg5 (by decide)).trans (W1_main_arg5 m ρ c)

theorem W2_main_arg7 : W2 m ρ c (Proc.devRef .tc main_arg7) = (m ((c : Thread nD τ).loc main_arg7)) :=
  (W2_of_ne m ρ c main_arg7 (by decide)).trans (W1_main_arg7 m ρ c)

theorem W2_main_arg8 : W2 m ρ c (Proc.devRef .tc main_arg8) = (m ((c : Thread nD τ).loc main_arg8)) :=
  (W2_of_ne m ρ c main_arg8 (by decide)).trans (W1_main_arg8 m ρ c)

theorem W2_main_arg9 : W2 m ρ c (Proc.devRef .tc main_arg9) = (m ((c : Thread nD τ).loc main_arg9)) :=
  (W2_of_ne m ρ c main_arg9 (by decide)).trans (W1_main_arg9 m ρ c)

theorem W2_main_arg2 : W2 m ρ c (Proc.devRef .tc main_arg2) = (m ((c : Thread nD τ).loc main_arg2)) :=
  (W2_of_ne m ρ c main_arg2 (by decide)).trans (W1_main_arg2 m ρ c)

theorem W2_main_arg3 : W2 m ρ c (Proc.devRef .tc main_arg3) = (m ((c : Thread nD τ).loc main_arg3)) :=
  (W2_of_ne m ρ c main_arg3 (by decide)).trans (W1_main_arg3 m ρ c)

/-! ## After the second stretch of host operations (the second region's entry) -/

theorem W3_main_v25 : W3 m ρ c (Proc.devRef .tc main_v25) = segsum64 (RegionProject.rowsTimes (m ((c : Thread nD τ).loc main_arg0)) (val_main_v22 (F := Ideal) (m ((c : Thread nD τ).loc main_arg4)))) (m ((c : Thread nD τ).loc main_arg1)) := by
  show StableHlo.after hostOps1 _ (Proc.devRef .tc main_v25) = _
  after_results
  rw [W2_main_v3 m ρ c, W2_main_v15_0 m ρ c, W2_main_v1 m ρ c]
  rfl

theorem W3_main_v26 : W3 m ρ c (Proc.devRef .tc main_v26) = biasRow (m ((c : Thread nD τ).loc main_arg5)) := by
  show StableHlo.after hostOps1 _ (Proc.devRef .tc main_v26) = _
  after_results
  rw [W2_main_arg5 m ρ c]
  rfl

theorem W3_main_v15_1 : W3 m ρ c (Proc.devRef .tc main_v15_1) = RegionProject.rowsTimes (m ((c : Thread nD τ).loc main_arg0)) (val_main_v27 (F := Ideal) (m ((c : Thread nD τ).loc main_arg6))) := by
  show StableHlo.after hostOps1 _ (Proc.devRef .tc main_v15_1) = _
  after_results
  exact W2_main_v15_1 m ρ c

theorem W3_main_v12 : W3 m ρ c (Proc.devRef .tc main_v12) = invDeg (m ((c : Thread nD τ).loc main_arg1)) := by
  show StableHlo.after hostOps1 _ (Proc.devRef .tc main_v12) = _
  after_results
  exact W2_main_v12 m ρ c

theorem W3_main_v1 : W3 m ρ c (Proc.devRef .tc main_v1) = val_main_v1 (F := Ideal) (m ((c : Thread nD τ).loc main_arg1)) := by
  show StableHlo.after hostOps1 _ (Proc.devRef .tc main_v1) = _
  after_results
  exact W2_main_v1 m ρ c

theorem W3_main_v3 : W3 m ρ c (Proc.devRef .tc main_v3) = val_main_v3 (F := Ideal) (m ((c : Thread nD τ).loc main_arg1)) := by
  show StableHlo.after hostOps1 _ (Proc.devRef .tc main_v3) = _
  after_results
  exact W2_main_v3 m ρ c

theorem W3_main_arg7 : W3 m ρ c (Proc.devRef .tc main_arg7) = (m ((c : Thread nD τ).loc main_arg7)) := by
  show StableHlo.after hostOps1 _ (Proc.devRef .tc main_arg7) = _
  after_results
  exact W2_main_arg7 m ρ c

theorem W3_main_arg8 : W3 m ρ c (Proc.devRef .tc main_arg8) = (m ((c : Thread nD τ).loc main_arg8)) := by
  show StableHlo.after hostOps1 _ (Proc.devRef .tc main_arg8) = _
  after_results
  exact W2_main_arg8 m ρ c

theorem W3_main_arg9 : W3 m ρ c (Proc.devRef .tc main_arg9) = (m ((c : Thread nD τ).loc main_arg9)) := by
  show StableHlo.after hostOps1 _ (Proc.devRef .tc main_arg9) = _
  after_results
  exact W2_main_arg9 m ρ c

theorem W3_main_arg2 : W3 m ρ c (Proc.devRef .tc main_arg2) = (m ((c : Thread nD τ).loc main_arg2)) := by
  show StableHlo.after hostOps1 _ (Proc.devRef .tc main_arg2) = _
  after_results
  exact W2_main_arg2 m ρ c

theorem W3_main_arg3 : W3 m ρ c (Proc.devRef .tc main_arg3) = (m ((c : Thread nD τ).loc main_arg3)) := by
  show StableHlo.after hostOps1 _ (Proc.devRef .tc main_arg3) = _
  after_results
  exact W2_main_arg3 m ρ c

/-! ## After the second region -/

theorem W4_main_v27 : W4 m ρ c (Proc.devRef .tc main_v27) = feat1 (m ((c : Thread nD τ).loc main_arg0)) (m ((c : Thread nD τ).loc main_arg1)) (m ((c : Thread nD τ).loc main_arg4)) (m ((c : Thread nD τ).loc main_arg5)) (m ((c : Thread nD τ).loc main_arg6)) :=
  (W4_arr m ρ c 4).trans ((RegionFinish.final4 (V3 m ρ) c).trans
    (congr4 RegionFinish.finishOf (W3_main_v25 m ρ c) (W3_main_v15_1 m ρ c) (W3_main_v12 m ρ c) (W3_main_v26 m ρ c)))

theorem W4_main_v1 : W4 m ρ c (Proc.devRef .tc main_v1) = val_main_v1 (F := Ideal) (m ((c : Thread nD τ).loc main_arg1)) :=
  (W4_of_ne m ρ c main_v1 (by decide)).trans (W3_main_v1 m ρ c)

theorem W4_main_v3 : W4 m ρ c (Proc.devRef .tc main_v3) = val_main_v3 (F := Ideal) (m ((c : Thread nD τ).loc main_arg1)) :=
  (W4_of_ne m ρ c main_v3 (by decide)).trans (W3_main_v3 m ρ c)

theorem W4_main_v12 : W4 m ρ c (Proc.devRef .tc main_v12) = invDeg (m ((c : Thread nD τ).loc main_arg1)) :=
  ((W4_arr m ρ c 2).trans (((dat1 (V3 m ρ) c).arrAt_in 2 rfl _).trans (A_eq1 (V3 m ρ) c 2))).trans (W3_main_v12 m ρ c)

theorem W4_main_arg7 : W4 m ρ c (Proc.devRef .tc main_arg7) = (m ((c : Thread nD τ).loc main_arg7)) :=
  (W4_of_ne m ρ c main_arg7 (by decide)).trans (W3_main_arg7 m ρ c)

theorem W4_main_arg8 : W4 m ρ c (Proc.devRef .tc main_arg8) = (m ((c : Thread nD τ).loc main_arg8)) :=
  (W4_of_ne m ρ c main_arg8 (by decide)).trans (W3_main_arg8 m ρ c)

theorem W4_main_arg9 : W4 m ρ c (Proc.devRef .tc main_arg9) = (m ((c : Thread nD τ).loc main_arg9)) :=
  (W4_of_ne m ρ c main_arg9 (by decide)).trans (W3_main_arg9 m ρ c)

theorem W4_main_arg2 : W4 m ρ c (Proc.devRef .tc main_arg2) = (m ((c : Thread nD τ).loc main_arg2)) :=
  (W4_of_ne m ρ c main_arg2 (by decide)).trans (W3_main_arg2 m ρ c)

theorem W4_main_arg3 : W4 m ρ c (Proc.devRef .tc main_arg3) = (m ((c : Thread nD τ).loc main_arg3)) :=
  (W4_of_ne m ρ c main_arg3 (by decide)).trans (W3_main_arg3 m ρ c)

/-! ## After the third stretch of host operations (the third region's entry) -/

theorem W5_main_v37 : W5 m ρ c (Proc.devRef .tc main_v37) = segsum64 (feat1 (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) := by
  generalize hR : segsum64 (feat1 (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) = R
  show StableHlo.after hostOps2 _ (Proc.devRef .tc main_v37) = R
  after_results
  exact (segsum_leaves (W4_main_v3 m ρ c) (W4_main_v27 m ρ c) (W4_main_v1 m ρ c)).trans hR

theorem W5_main_v38 : W5 m ρ c (Proc.devRef .tc main_v38) = val_main_v49 (F := Ideal) (m ((c : Thread nD τ).loc main_arg7)) := by
  show StableHlo.after hostOps2 _ (Proc.devRef .tc main_v38) = _
  after_results
  rw [W4_main_arg7 m ρ c]
  rfl

theorem W5_main_v39 : W5 m ρ c (Proc.devRef .tc main_v39) = val_main_v54 (F := Ideal) (m ((c : Thread nD τ).loc main_arg9)) := by
  show StableHlo.after hostOps2 _ (Proc.devRef .tc main_v39) = _
  after_results
  rw [W4_main_arg9 m ρ c]
  rfl

theorem W5_main_v40 : W5 m ρ c (Proc.devRef .tc main_v40) = biasRow (m ((c : Thread nD τ).loc main_arg8)) := by
  show StableHlo.after hostOps2 _ (Proc.devRef .tc main_v40) = _
  after_results
  rw [W4_main_arg8 m ρ c]
  rfl

theorem W5_main_v27 : W5 m ρ c (Proc.devRef .tc main_v27) = feat1 (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps2 _ (Proc.devRef .tc main_v27) = _
  after_results
  exact W4_main_v27 m ρ c

theorem W5_main_v12 : W5 m ρ c (Proc.devRef .tc main_v12) = invDeg (m ((c : Thread nD τ).loc main_arg1)) := by
  show StableHlo.after hostOps2 _ (Proc.devRef .tc main_v12) = _
  after_results
  exact W4_main_v12 m ρ c

theorem W5_main_arg2 : W5 m ρ c (Proc.devRef .tc main_arg2) = (m ((c : Thread nD τ).loc main_arg2)) := by
  show StableHlo.after hostOps2 _ (Proc.devRef .tc main_arg2) = _
  after_results
  exact W4_main_arg2 m ρ c

theorem W5_main_arg3 : W5 m ρ c (Proc.devRef .tc main_arg3) = (m ((c : Thread nD τ).loc main_arg3)) := by
  show StableHlo.after hostOps2 _ (Proc.devRef .tc main_arg3) = _
  after_results
  exact W4_main_arg3 m ρ c

/-! ## After the third region -/

theorem W6_main_v41 : W6 m ρ c (Proc.devRef .tc main_v41) = feat2 (feat1 (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) :=
  (W6_arr m ρ c 6).trans ((RegionCombine.final6 (V5 m ρ) c).trans
    (congr6 RegionCombine.combineOf (W5_main_v37 m ρ c) (W5_main_v27 m ρ c) (W5_main_v12 m ρ c) (W5_main_v38 m ρ c) (W5_main_v39 m ρ c) (W5_main_v40 m ρ c)))

theorem W6_main_arg2 : W6 m ρ c (Proc.devRef .tc main_arg2) = (m ((c : Thread nD τ).loc main_arg2)) :=
  (W6_of_ne m ρ c main_arg2 (by decide)).trans (W5_main_arg2 m ρ c)

theorem W6_main_arg3 : W6 m ρ c (Proc.devRef .tc main_arg3) = (m ((c : Thread nD τ).loc main_arg3)) :=
  (W6_of_ne m ρ c main_arg3 (by decide)).trans (W5_main_arg3 m ρ c)

/-! ## After the last stretch of host operations -/

/-- THE RESULT BUFFER at the last boundary is the kernel's value of the ten argument arrays. -/
theorem W7_main_v63 : W7 m ρ c (Proc.devRef .tc main_v63) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  generalize hR : out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = R
  show StableHlo.after hostOps3 _ (Proc.devRef .tc main_v63) = R
  after_results_simp
  exact (decode_leaves (W6_main_v41 m ρ c) (W6_main_arg2 m ρ c) (W6_main_arg3 m ρ c)).trans hR

end Cert.KernelIdeal.Fold

end
-- ==== Proof.LibEntryScatterAdd.lean ====
/-
  Adding numbers into a vector at run-time positions (a segment sum of scalars), read one entry at a time.

  The host's scatter with an addition body takes a vector x of R entries, a column of N integer positions
  (an N × 1 array, read as SIGNED integers) and N update numbers. Update e is added into entry idx(e, 0) of
  the vector; an update whose position is negative or at least R falls outside and is dropped. So entry r of
  the result is

      x r + Σ_{e < N, idx(e, 0) = r} upd e.

  Derived from the general definition of the result index (start index plus window coordinate) for ANY
  extents R, N and any width of the integer positions: on the vector's one axis the start is the position
  and the window coordinate is 0 (the axis is inserted: a window is one entry wide); hence update e lands on
  entry r exactly when idx(e, 0) = r as integers.

  In particular, with every update equal to one number the entry is x r plus that number once per position
  equal to r: a count of the positions equal to r when the number is 1.
-/
import Idealize.ShloMosaic.PureOps.Ideal
import Idealize.ShloMosaic.PureOps.Dims
import Idealize.ShloMosaic.Lib.ValueIdx

noncomputable section

namespace Cert.LibEntryScatterAdd

open Idealize.ShloMosaic Idealize.ShloMosaic.ValueIdx
open scoped BigOperators

variable {R N : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars: vector [R], positions [N, 1] with the index vector on
    axis 1, updates [N]; the updates have no window axis, axis 0 of the vector is inserted and is the axis
    the position addresses. -/
abbrev entryDims (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ :=
  { updateWindowDims := [], insertedWindowDims := [0], scatterDimsToOperandDims := [0], indexVectorDim := 1, wf := wf }

section Coordinates

variable (wf : ScatterDims.WF (⟨1, ![R]⟩ : Shape) ⟨2, ![N, 1]⟩ ⟨1, ![N]⟩ [] [0] [0] 1)

/-- The window of update j starts at j's position, read signed. -/
theorem entryDims_start {w : Nat} (idx : IVec (⟨2, ![N, 1]⟩ : Shape) w) (j : (⟨1, ![N]⟩ : Shape).Idx) :
    (entryDims wf).start j idx 0 = (idx (ix2 (j 0) (0 : Fin 1))).toInt := by
  unfold ScatterDims.start
  rw [dif_pos (show (0 : Fin 1) ∈ (entryDims wf).scatterDimsToOperandDims from List.mem_singleton.mpr rfl)]
  have hsi : (entryDims wf).siIdx j ⟨List.idxOf (0 : Fin 1) (entryDims wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The vector's axis is inserted: the window coordinate is 0. -/
theorem entryDims_window (j : (⟨1, ![N]⟩ : Shape).Idx) : (entryDims wf).window j 0 = 0 := by
  unfold ScatterDims.window
  have hm : ¬ (0 : Fin 1) ∈ (entryDims wf).sKept := show ¬ (0 : Fin 1) ∈ ([] : List (Fin 1)) from List.not_mem_nil
  rw [dif_neg hm]

/-- WHERE AN UPDATE LANDS: update j lands on entry i exactly when j's position, read signed, is i. -/
theorem entryDims_resultIdx_eq_some_iff {w : Nat} (idx : IVec (⟨2, ![N, 1]⟩ : Shape) w)
    (j : (⟨1, ![N]⟩ : Shape).Idx) (i : (⟨1, ![R]⟩ : Shape).Idx) :
    (entryDims wf).resultIdx? j idx = some i ↔ (idx (ix2 (j 0) (0 : Fin 1))).toInt = ((i 0).val : Int) := by
  have hs0 := entryDims_start wf idx j
  have hw0 := entryDims_window wf j
  have hi0 : (i 0).val < R := (i 0).isLt
  unfold ScatterDims.resultIdx?
  split
  · rename_i h
    rw [Option.some.injEq]
    have h0 := h 0
    constructor
    · intro e
      have e0 : ((entryDims wf).start j idx 0 + (entryDims wf).window j 0).toNat = (i 0).val :=
        congrArg (fun f : (⟨1, ![R]⟩ : Shape).Idx => (f 0).val) e
      rw [hs0, hw0] at e0 h0
      omega
    · intro e0
      funext a; refine Fin.ext ?_
      match a with
      | ⟨0, _⟩ =>
        show ((entryDims wf).start j idx 0 + (entryDims wf).window j 0).toNat = (i 0).val
        rw [hs0, hw0, e0]; omega
  · rename_i h
    constructor
    · intro e; exact absurd e (by simp)
    · intro e0
      refine absurd (fun a => ?_) h
      match a with
      | ⟨0, _⟩ =>
        show 0 ≤ (entryDims wf).start j idx 0 + (entryDims wf).window j 0 ∧
          (entryDims wf).start j idx 0 + (entryDims wf).window j 0 < ((R : Nat) : Int)
        rw [hs0, hw0, e0]; omega

/-- THE SCATTER-ADD OF SCALARS READ AT ONE ENTRY: entry r of the result is the vector's entry plus the sum of
    the updates whose position read signed is r. -/
theorem entrySum_apply {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (entryDims wf) x idx upd (ix1 r)
      = x (ix1 r) + ∑ e : Fin N, if (idx (ix2 e (0 : Fin 1))).toInt = (r.val : Int) then upd (ix1 e) else 0 := by
  unfold Ideal.hostScatterAdd
  congr 1
  rw [Finset.sum_filter, sum_idx1]
  refine Finset.sum_congr rfl fun e _ => ?_
  have hc : ((entryDims wf).resultIdx? (ix1 e) idx = some (ix1 r)) ↔
      ((idx (ix2 e (0 : Fin 1))).toInt = (r.val : Int)) := entryDims_resultIdx_eq_some_iff wf idx (ix1 e) (ix1 r)
  simp only [hc]

end Coordinates

end Cert.LibEntryScatterAdd

end
-- ==== Proof.LibRowScatterAdd.lean ====
/-
  Adding rows into a table at run-time row numbers (a segment sum), read one entry at a time.

  The host's scatter with an addition body takes a table x of R rows and C columns, a column of N integer
  row numbers (an N × 1 array, read as SIGNED integers) and N update rows of C entries each. With the
  dimension numbers fixed below, update row e is added, entry by entry, into row idx(e, 0) of the table;
  an update whose row number is negative or at least R falls outside the table and is dropped. So entry
  (r, q) of the result is

      x (r, q) + Σ_{e < N, idx(e, 0) = r} upd (e, q).

  The file derives this from the general definition of the result index (start index plus window
  coordinate on each table axis) for ANY extents R, C, N and any width of the integer row numbers:

    * on the row axis the start is the row number and the window coordinate is 0;
    * on the column axis the start is 0 and the window coordinate is the update's column;
    * hence update entry (e, c) lands on table entry (i₀, i₁) exactly when idx(e, 0) = i₀ as integers
      and c = i₁ (the bounds 0 ≤ idx(e, 0) < R are then automatic, i₀ being a row of the table);
    * the sum over the update entries that land on (r, q) is a double sum over e and c in which the
      column condition c = q picks one term.

  Last, a sum over the first N₁ + N₂ naturals splits into the sum over the first N₁ and the sum over the
  next N₂, which is how a sum over all update rows is cut into two consecutive runs of rows.
-/
import Idealize.ShloMosaic.PureOps.Ideal
import Idealize.ShloMosaic.PureOps.Dims
import Idealize.ShloMosaic.Lib.ValueIdx

noncomputable section

namespace Cert.LibRowScatterAdd

open Idealize.ShloMosaic Idealize.ShloMosaic.ValueIdx
open scoped BigOperators

variable {R C N : Nat}

/-- The dimension numbers of a row scatter: table [R, C], row numbers [N, 1] with the index vector on
    axis 1, updates [N, C]; axis 1 of the updates is the window axis, axis 0 of the table is inserted
    (a window is one row wide on it) and is the axis the row number addresses. -/
abbrev segDims (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ :=
  { updateWindowDims := [1], insertedWindowDims := [0], scatterDimsToOperandDims := [0], indexVectorDim := 1, wf := wf }

section Coordinates

variable (wf : ScatterDims.WF (⟨2, ![R, C]⟩ : Shape) ⟨2, ![N, 1]⟩ ⟨2, ![N, C]⟩ [1] [0] [0] 1)

/-- On the row axis the window of update entry j starts at the row number of j's update row, read signed. -/
theorem segDims_start_row {w : Nat} (idx : IVec (⟨2, ![N, 1]⟩ : Shape) w) (j : (⟨2, ![N, C]⟩ : Shape).Idx) :
    (segDims wf).start j idx 0 = (idx (ix2 (j 0) (0 : Fin 1))).toInt := by
  unfold ScatterDims.start
  rw [dif_pos (show (0 : Fin 2) ∈ (segDims wf).scatterDimsToOperandDims from List.mem_singleton.mpr rfl)]
  have hsi : (segDims wf).siIdx j ⟨List.idxOf (0 : Fin 2) (segDims wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the row number does not address, the window starts at 0. -/
theorem segDims_start_col {w : Nat} (idx : IVec (⟨2, ![N, 1]⟩ : Shape) w) (j : (⟨2, ![N, C]⟩ : Shape).Idx) :
    (segDims wf).start j idx 1 = 0 := by
  unfold ScatterDims.start
  rw [dif_neg (show ¬ (1 : Fin 2) ∈ [(0 : Fin 2)] by decide)]

/-- On the row axis, an inserted axis, the window coordinate is 0. -/
theorem segDims_window_row (j : (⟨2, ![N, C]⟩ : Shape).Idx) : (segDims wf).window j 0 = 0 := by
  unfold ScatterDims.window
  have hm : ¬ (0 : Fin 2) ∈ (segDims wf).sKept := show ¬ (0 : Fin 2) ∈ [(1 : Fin 2)] by decide
  rw [dif_neg hm]

/-- On the column axis the window coordinate is the update entry's column. -/
theorem segDims_window_col (j : (⟨2, ![N, C]⟩ : Shape).Idx) : (segDims wf).window j 1 = (j 1).val := by
  unfold ScatterDims.window
  have hm : (1 : Fin 2) ∈ (segDims wf).sKept := show (1 : Fin 2) ∈ [(1 : Fin 2)] by decide
  rw [dif_pos hm]
  rfl

/-- WHERE AN UPDATE ENTRY LANDS: update entry j lands on table entry i exactly when the row number of j's
    update row, read signed, is i's row and j's column is i's column. -/
theorem segDims_resultIdx_eq_some_iff {w : Nat} (idx : IVec (⟨2, ![N, 1]⟩ : Shape) w)
    (j : (⟨2, ![N, C]⟩ : Shape).Idx) (i : (⟨2, ![R, C]⟩ : Shape).Idx) :
    (segDims wf).resultIdx? j idx = some i ↔
      (idx (ix2 (j 0) (0 : Fin 1))).toInt = ((i 0).val : Int) ∧ (j 1).val = (i 1).val := by
  have hs0 := segDims_start_row wf idx j
  have hs1 := segDims_start_col wf idx j
  have hw0 := segDims_window_row wf j
  have hw1 := segDims_window_col wf j
  have hi0 := idx2_lt0 i
  have hi1 := idx2_lt1 i
  unfold ScatterDims.resultIdx?
  split
  · rename_i h
    rw [Option.some.injEq]
    have h0 := h 0
    have h1 := h 1
    constructor
    · intro e
      have e0 : ((segDims wf).start j idx 0 + (segDims wf).window j 0).toNat = (i 0).val :=
        congrArg (fun f : (⟨2, ![R, C]⟩ : Shape).Idx => (f 0).val) e
      have e1 : ((segDims wf).start j idx 1 + (segDims wf).window j 1).toNat = (i 1).val :=
        congrArg (fun f : (⟨2, ![R, C]⟩ : Shape).Idx => (f 1).val) e
      rw [hs0, hw0] at e0 h0
      rw [hs1, hw1] at e1 h1
      constructor <;> omega
    · rintro ⟨e0, e1⟩
      funext a; refine Fin.ext ?_
      match a with
      | ⟨0, _⟩ =>
        show ((segDims wf).start j idx 0 + (segDims wf).window j 0).toNat = (i 0).val
        rw [hs0, hw0, e0]; omega
      | ⟨1, _⟩ =>
        show ((segDims wf).start j idx 1 + (segDims wf).window j 1).toNat = (i 1).val
        rw [hs1, hw1]; omega
  · rename_i h
    constructor
    · intro e; exact absurd e (by simp)
    · rintro ⟨e0, e1⟩
      refine absurd (fun a => ?_) h
      match a with
      | ⟨0, _⟩ =>
        show 0 ≤ (segDims wf).start j idx 0 + (segDims wf).window j 0 ∧
          (segDims wf).start j idx 0 + (segDims wf).window j 0 < ((R : Nat) : Int)
        rw [hs0, hw0, e0]; omega
      | ⟨1, _⟩ =>
        show 0 ≤ (segDims wf).start j idx 1 + (segDims wf).window j 1 ∧
          (segDims wf).start j idx 1 + (segDims wf).window j 1 < ((C : Nat) : Int)
        rw [hs1, hw1]; omega

/-- THE ROW SCATTER-ADD READ AT ONE ENTRY: entry (r, q) of the result is the table's entry plus the sum,
    over the update rows whose row number read signed is r, of their entry in column q. -/
theorem segSum_apply {w : Nat} (x : (⟨2, ![R, C]⟩ : Shape).Idx → EReal) (idx : IVec (⟨2, ![N, 1]⟩ : Shape) w)
    (upd : (⟨2, ![N, C]⟩ : Shape).Idx → EReal) (r : Fin R) (q : Fin C) :
    Ideal.hostScatterAdd (segDims wf) x idx upd (ix2 r q)
      = x (ix2 r q) + ∑ e : Fin N, if (idx (ix2 e (0 : Fin 1))).toInt = (r.val : Int) then upd (ix2 e q) else 0 := by
  unfold Ideal.hostScatterAdd
  congr 1
  rw [Finset.sum_filter, sum_idx2]
  refine Finset.sum_congr rfl fun e _ => ?_
  have hc : ∀ c : Fin C, ((segDims wf).resultIdx? (ix2 e c) idx = some (ix2 r q)) ↔
      ((idx (ix2 e (0 : Fin 1))).toInt = (r.val : Int) ∧ c = q) := by
    intro c
    rw [segDims_resultIdx_eq_some_iff, Fin.ext_iff]
    exact Iff.rfl
  simp only [hc, ite_and]
  by_cases ht : (idx (ix2 e (0 : Fin 1))).toInt = (r.val : Int)
  · simp only [if_pos ht, Finset.sum_ite_eq', Finset.mem_univ, ↓reduceIte]
  · simp only [if_neg ht, Finset.sum_const_zero]

end Coordinates

/-- A sum over the first N₁ + N₂ naturals is the sum over the first N₁ plus the sum over the next N₂. -/
theorem sum_fin_split {M : Type*} [AddCommMonoid M] {N₁ N₂ N : Nat} (hN : N = N₁ + N₂) (f : Fin N → M) :
    ∑ e : Fin N, f e = (∑ e : Fin N₁, f ⟨e.val, by omega⟩) + ∑ e : Fin N₂, f ⟨N₁ + e.val, by omega⟩ := by
  subst hN
  rw [Fin.sum_univ_add]
  rfl

end Cert.LibRowScatterAdd

end
-- ==== Proof.LibRowGather.lean ====
/-
  Picking rows of a table at run-time row numbers (x[idx] along the first axis), read one entry at a time.

  The host's gather takes a table x of R rows (each a single entry, or a row of C entries) and a column of N
  integer row numbers (an N × 1 array). With the dimension numbers fixed below the result has one row per
  row number: result row e is the table's row at the row number idx(e, 0) READ AS A SIGNED INTEGER AND
  CLAMPED into [0, R − 1] — a negative row number reads row 0, one past the end reads the last row. So

      result (e, q) = x (rowOf (idx (e, 0)), q)          (a table of rows)
      result (e)    = x (rowOf (idx (e, 0)))             (a table of single entries)

  where rowOf b = min (max (signed b) 0) (R − 1). The file derives both from the general definition of the
  operand index (clamped start + batching coordinate + offset coordinate on each table axis), for ANY extents
  R, C, N and any width of the integer row numbers:

    * on the row axis, which the row number addresses and which is collapsed, the start is the clamped row
      number and the offset coordinate is 0;
    * on the column axis the start is 0 and the offset coordinate is the result's column.

  Last, a row number that is already a row of the table (0 ≤ signed b = r < R) is its own clamp: rowOf b = r.
-/
import Idealize.ShloMosaic.PureOps.Ideal
import Idealize.ShloMosaic.PureOps.Dims
import Idealize.ShloMosaic.Lib.ValueIdx

noncomputable section

namespace Cert.LibRowGather

open Idealize.ShloMosaic Idealize.ShloMosaic.ValueIdx

variable {α : Type} {R C N : Nat}

/-- The row of an R-row table that a row number addresses: the number read signed, a negative one taken
    as 0, one past the end as the last row. -/
def rowOf (R : Nat) (hR : 0 < R) {w : Nat} (b : BitVec w) : Fin R := ⟨min b.toInt.toNat (R - 1), by omega⟩

/-- A row number that is a row of the table addresses that row. -/
theorem rowOf_eq_of_toInt {w : Nat} (hR : 0 < R) (b : BitVec w) (r : Fin R) (h : b.toInt = (r.val : Int)) :
    rowOf R hR b = r := by
  refine Fin.ext ?_
  show min b.toInt.toNat (R - 1) = r.val
  have hr := r.isLt
  rw [h]
  omega

/-! ## Rows of C entries -/

/-- The dimension numbers of a row gather: table [R, C], row numbers [N, 1] with the index vector on axis 1,
    result [N, C]; axis 1 of the result is the offset axis, axis 0 of the table is collapsed (a slice is one
    row) and is the axis the row number addresses. -/
abbrev rowDims (wf : GatherDims.WF (⟨2, ![R, C]⟩ : Shape) ⟨2, ![N, 1]⟩ ⟨2, ![N, C]⟩ [1] [0] [] [0] [] 1 ![1, C]) :
    GatherDims (⟨2, ![R, C]⟩ : Shape) ⟨2, ![N, 1]⟩ ⟨2, ![N, C]⟩ :=
  { offsetDims := [1], collapsedSliceDims := [0], operandBatchingDims := [], startIndicesBatchingDims := [],
    startIndexMap := [0], indexVectorDim := 1, sliceSizes := ![1, C], wf := wf }

/-- THE ROW GATHER READ AT ONE ENTRY: entry (e, q) of the result is the table's entry in column q of the row
    that row number e addresses. -/
theorem rowGather_apply {w : Nat} (hR : 0 < R)
    (wf : GatherDims.WF (⟨2, ![R, C]⟩ : Shape) ⟨2, ![N, 1]⟩ ⟨2, ![N, C]⟩ [1] [0] [] [0] [] 1 ![1, C])
    (x : (⟨2, ![R, C]⟩ : Shape).Idx → α) (idx : IVec (⟨2, ![N, 1]⟩ : Shape) w) (e : Fin N) (q : Fin C) :
    Host.gather (rowDims wf) x idx (ix2 e q) = x (ix2 (rowOf R hR (idx (ix2 e (0 : Fin 1)))) q) := by
  unfold Host.gather
  congr 1
  funext a
  refine Fin.ext ?_
  match a with
  | ⟨0, _⟩ =>
    show (rowDims wf).start (ix2 e q) idx 0 + (rowDims wf).batchCoord (ix2 e q) 0 + (rowDims wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 e q) ⟨List.idxOf (0 : Fin 2) (rowDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims wf).start (ix2 e q) idx 1 + (rowDims wf).batchCoord (ix2 e q) 1 + (rowDims wf).offCoord (ix2 e q) 1 = _
    rw [GatherDims.batchCoord_eq_zero _ _ _ List.not_mem_nil]
    have hst : (rowDims wf).start (ix2 e q) idx 1 = 0 := by
      unfold GatherDims.start
      rw [dif_neg (show ¬ (1 : Fin 2) ∈ [(0 : Fin 2)] by decide)]
    rw [hst]
    unfold GatherDims.offCoord
    rw [dif_pos (show (1 : Fin 2) ∈ (rowDims wf).sKept from show (1 : Fin 2) ∈ [(1 : Fin 2)] by decide)]
    simp only [Nat.zero_add, Nat.add_zero]
    rfl

/-! ## Single entries -/

/-- The dimension numbers of an entry gather: table [R], row numbers [N, 1] with the index vector on axis 1,
    result [N]; the table's one axis is collapsed and is the axis the row number addresses. -/
abbrev entryDims (wf : GatherDims.WF (⟨1, ![R]⟩ : Shape) ⟨2, ![N, 1]⟩ ⟨1, ![N]⟩ [] [0] [] [0] [] 1 ![1]) :
    GatherDims (⟨1, ![R]⟩ : Shape) ⟨2, ![N, 1]⟩ ⟨1, ![N]⟩ :=
  { offsetDims := [], collapsedSliceDims := [0], operandBatchingDims := [], startIndicesBatchingDims := [],
    startIndexMap := [0], indexVectorDim := 1, sliceSizes := ![1], wf := wf }

/-- THE ENTRY GATHER READ AT ONE ENTRY: entry e of the result is the table's entry at the row that row number
    e addresses. -/
theorem entryGather_apply {w : Nat} (hR : 0 < R)
    (wf : GatherDims.WF (⟨1, ![R]⟩ : Shape) ⟨2, ![N, 1]⟩ ⟨1, ![N]⟩ [] [0] [] [0] [] 1 ![1])
    (x : (⟨1, ![R]⟩ : Shape).Idx → α) (idx : IVec (⟨2, ![N, 1]⟩ : Shape) w) (e : Fin N) :
    Host.gather (entryDims wf) x idx (ix1 e) = x (ix1 (rowOf R hR (idx (ix2 e (0 : Fin 1))))) := by
  unfold Host.gather
  congr 1
  funext a
  obtain rfl : a = 0 := Subsingleton.elim _ _
  refine Fin.ext ?_
  show (entryDims wf).start (ix1 e) idx 0 + (entryDims wf).batchCoord (ix1 e) 0 + (entryDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims wf).startIndexMap from List.mem_singleton.mpr rfl)]
  have hsi : (entryDims wf).siIdx (ix1 e) ⟨List.idxOf (0 : Fin 1) (entryDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibRowGather

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibSegmentGather.lean ====
/-
  A segment sum and a row lookup driven by a VECTOR of row numbers (jax.ops.segment_sum(u, d) and x[s] along the
  first axis), read one entry at a time.

  Both lower to a scatter / a gather whose row numbers are the vector laid out as a one-column array. With
  N row numbers, R table rows and C columns, for any extents and any width of the integers:

    * `segmentSum_apply`: the scatter-add of N update rows into a table of zeros, at (r, q), is
          0 + Σ_{e < N, d(e) = r as signed integers} u (e, q)
      — an update whose row number is not a row of the table is dropped;
    * `lookupRows_apply`: the gather of rows of an R × C table, at (e, q), is x (rowOf (s e), q), where the row
      number is read signed and clamped into the table;
    * `lookupEntries_apply`: the same for a table of R single entries.
-/
import Idealize.ShloMosaic.PureOps.Ideal
import Idealize.ShloMosaic.PureOps.Ideal.Laws
import Idealize.ShloMosaic.PureOps.Dims
import Idealize.ShloMosaic.Lib.ValueIdx
import proofs.«129659_j90452011254251_2_alg».proof.Proof.LibRowScatterAdd
import proofs.«129659_j90452011254251_2_alg».proof.Proof.LibRowGather
import proofs.«129659_j90452011254251_2_alg».proof.Proof.LibColumns

noncomputable section

namespace Cert.LibSegmentGather

open Idealize.ShloMosaic Idealize.ShloMosaic.ValueIdx
open Cert.LibRowScatterAdd Cert.LibRowGather
open scoped BigOperators

variable {α : Type} {R C N w : ℕ}

/-- On the extended reals the host's scatter-add is the exact sum of the updates that land on each entry. -/
theorem scatterAdd_exact {s si u : Shape} (dims : ScatterDims s si u) (x : FVec Ideal s .f32) (idx : IVec si w)
    (upd : FVec Ideal u .f32) : Host.scatterAdd dims x idx upd = Ideal.hostScatterAdd dims x idx upd := by
  unfold Host.scatterAdd
  rfl

/-- A segment sum into zeros, at (r, q): the sum of the update rows whose row number, read signed, is r. -/
theorem segmentSum_apply
    (wf : ScatterDims.WF (⟨2, ![R, C]⟩ : Shape) ⟨2, ![N, 1]⟩ ⟨2, ![N, C]⟩ [1] [0] [0] 1)
    (hb : (⟨1, ![N]⟩ : Shape).BroadcastsInDim ⟨2, ![N, 1]⟩ (![0] : Fin 1 → Fin (⟨2, ![N, 1]⟩ : Shape).rank))
    (zero : FVec Ideal ⟨2, ![R, C]⟩ .f32) (hz : ∀ i, zero i = 0)
    (d : IVec ⟨1, ![N]⟩ w) (u : FVec Ideal ⟨2, ![N, C]⟩ .f32) (r : Fin R) (q : Fin C) :
    Host.scatterAdd (segDims wf) zero (broadcastInDim ⟨2, ![N, 1]⟩ ![0] hb d) u (ix2 r q)
      = 0 + ∑ e : Fin N, if (d (ix1 e)).toInt = (r.val : Int) then u (ix2 e q) else 0 := by
  rw [scatterAdd_exact, segSum_apply wf zero (broadcastInDim ⟨2, ![N, 1]⟩ ![0] hb d) u r q, hz]
  refine congrArg _ (Finset.sum_congr rfl fun e _ => ?_)
  rw [Cert.LibColumns.broadcastInDim_a_a1_apply]

/-- A lookup of rows, at (e, q): the table's entry in column q of the row that row number e addresses. -/
theorem lookupRows_apply (hR : 0 < R)
    (wf : GatherDims.WF (⟨2, ![R, C]⟩ : Shape) ⟨2, ![N, 1]⟩ ⟨2, ![N, C]⟩ [1] [0] [] [0] [] 1 ![1, C])
    (hb : (⟨1, ![N]⟩ : Shape).BroadcastsInDim ⟨2, ![N, 1]⟩ (![0] : Fin 1 → Fin (⟨2, ![N, 1]⟩ : Shape).rank))
    (x : (⟨2, ![R, C]⟩ : Shape).Idx → α) (s : IVec ⟨1, ![N]⟩ w) (e : Fin N) (q : Fin C) :
    Host.gather (rowDims wf) x (broadcastInDim ⟨2, ![N, 1]⟩ ![0] hb s) (ix2 e q)
      = x (ix2 (rowOf R hR (s (ix1 e))) q) := by
  rw [rowGather_apply hR wf, Cert.LibColumns.broadcastInDim_a_a1_apply]

/-- A lookup of single entries, at e. -/
theorem lookupEntries_apply (hR : 0 < R)
    (wf : GatherDims.WF (⟨1, ![R]⟩ : Shape) ⟨2, ![N, 1]⟩ ⟨1, ![N]⟩ [] [0] [] [0] [] 1 ![1])
    (hb : (⟨1, ![N]⟩ : Shape).BroadcastsInDim ⟨2, ![N, 1]⟩ (![0] : Fin 1 → Fin (⟨2, ![N, 1]⟩ : Shape).rank))
    (x : (⟨1, ![R]⟩ : Shape).Idx → α) (s : IVec ⟨1, ![N]⟩ w) (e : Fin N) :
    Host.gather (entryDims wf) x (broadcastInDim ⟨2, ![N, 1]⟩ ![0] hb s) (ix1 e)
      = x (ix1 (rowOf R hR (s (ix1 e)))) := by
  rw [entryGather_apply hR wf, Cert.LibColumns.broadcastInDim_a_a1_apply]

/-- THE TWO COMPOSED — segment_sum (x[s], d) into zeros, at (r, q): the sum, over the positions e whose
    destination number is r, of the table's entry in column q of the row that source number e addresses. -/
theorem segmentOfLookup_apply (hR : 0 < R)
    (wfS : ScatterDims.WF (⟨2, ![R, C]⟩ : Shape) ⟨2, ![N, 1]⟩ ⟨2, ![N, C]⟩ [1] [0] [0] 1)
    (wfG : GatherDims.WF (⟨2, ![R, C]⟩ : Shape) ⟨2, ![N, 1]⟩ ⟨2, ![N, C]⟩ [1] [0] [] [0] [] 1 ![1, C])
    (hb : (⟨1, ![N]⟩ : Shape).BroadcastsInDim ⟨2, ![N, 1]⟩ (![0] : Fin 1 → Fin (⟨2, ![N, 1]⟩ : Shape).rank))
    (zero : FVec Ideal ⟨2, ![R, C]⟩ .f32) (hz : ∀ i, zero i = 0)
    (x : FVec Ideal ⟨2, ![R, C]⟩ .f32) (s d : IVec ⟨1, ![N]⟩ w) (r : Fin R) (q : Fin C) :
    Host.scatterAdd (segDims wfS) zero (broadcastInDim ⟨2, ![N, 1]⟩ ![0] hb d)
        (Host.gather (rowDims wfG) x (broadcastInDim ⟨2, ![N, 1]⟩ ![0] hb s)) (ix2 r q)
      = 0 + ∑ e : Fin N, if (d (ix1 e)).toInt = (r.val : Int) then x (ix2 (rowOf R hR (s (ix1 e))) q) else 0 := by
  rw [segmentSum_apply wfS hb zero hz]
  refine congrArg _ (Finset.sum_congr rfl fun e _ => ?_)
  rw [lookupRows_apply hR wfG hb]

/-- A column repeated along the rows by the host ([a, 1] → [a, b]), read at (p, c). -/
theorem repeatColumn_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A NORMALISED SEGMENT SUM as jnp spells it — per position e a factor dv[s e] · dv[t e] (two entry lookups,
    multiplied, laid out as a column and repeated along the row), times the looked-up row x[s e], summed into the
    destination d e — at (r, q): the sum, over the positions whose destination number is r, of
    (dv (row s e) · dv (row t e)) · x (row s e, q). -/
theorem normalisedSegment_apply (hR : 0 < R)
    (wfS : ScatterDims.WF (⟨2, ![R, C]⟩ : Shape) ⟨2, ![N, 1]⟩ ⟨2, ![N, C]⟩ [1] [0] [0] 1)
    (wfG : GatherDims.WF (⟨2, ![R, C]⟩ : Shape) ⟨2, ![N, 1]⟩ ⟨2, ![N, C]⟩ [1] [0] [] [0] [] 1 ![1, C])
    (wfE : GatherDims.WF (⟨1, ![R]⟩ : Shape) ⟨2, ![N, 1]⟩ ⟨1, ![N]⟩ [] [0] [] [0] [] 1 ![1])
    (hb : (⟨1, ![N]⟩ : Shape).BroadcastsInDim ⟨2, ![N, 1]⟩ (![0] : Fin 1 → Fin (⟨2, ![N, 1]⟩ : Shape).rank))
    (hrep : (⟨2, ![N, 1]⟩ : Shape).BroadcastsInDim ⟨2, ![N, C]⟩ (![0, 1] : Fin 2 → Fin (⟨2, ![N, C]⟩ : Shape).rank))
    (zero : FVec Ideal ⟨2, ![R, C]⟩ .f32) (hz : ∀ i, zero i = 0)
    (dv : FVec Ideal ⟨1, ![R]⟩ .f32) (x : FVec Ideal ⟨2, ![R, C]⟩ .f32) (s t d : IVec ⟨1, ![N]⟩ w) (r : Fin R) (q : Fin C) :
    Host.scatterAdd (segDims wfS) zero (broadcastInDim ⟨2, ![N, 1]⟩ ![0] hb d)
        (mulf (F := Ideal) (φ := .f32)
          (broadcastInDim ⟨2, ![N, C]⟩ ![0, 1] hrep (broadcastInDim ⟨2, ![N, 1]⟩ ![0] hb
            (mulf (F := Ideal) (φ := .f32) (Host.gather (entryDims wfE) dv (broadcastInDim ⟨2, ![N, 1]⟩ ![0] hb s))
              (Host.gather (entryDims wfE) dv (broadcastInDim ⟨2, ![N, 1]⟩ ![0] hb t)))))
          (Host.gather (rowDims wfG) x (broadcastInDim ⟨2, ![N, 1]⟩ ![0] hb s))) (ix2 r q)
      = 0 + ∑ e : Fin N, if (d (ix1 e)).toInt = (r.val : Int)
          then (dv (ix1 (rowOf R hR (s (ix1 e)))) * dv (ix1 (rowOf R hR (t (ix1 e))))) * x (ix2 (rowOf R hR (s (ix1 e))) q) else 0 := by
  rw [segmentSum_apply wfS hb zero hz]
  refine congrArg _ (Finset.sum_congr rfl fun e _ => ?_)
  rw [mulf_apply, repeatColumn_apply, Cert.LibColumns.broadcastInDim_a_a1_apply, mulf_apply,
    lookupEntries_apply hR wfE hb, lookupEntries_apply hR wfE hb, lookupRows_apply hR wfG hb]

end Cert.LibSegmentGather

end
-- ==== Proof.DegreeReads.lean ====
/-
  The in-degree of a node, as each program counts it.

  Both programs add a one per edge into a table of zeros at the edge's destination number (read signed; a number
  that is not a node is dropped), then clamp below at one:

      deg n = max (0 + Σ_e [d(e) = n] 1) 1.

  The reference keeps the counts as a one-column array [100000, 1] and divides by it; the kernel counts into a vector
  [100000], inverts, and lays the reciprocals out as a column. Read at node n: the reference's column holds deg n, the
  kernel's column holds 1 / deg n.
-/
import proofs.«129659_j90452011254251_2_alg».proof.Proof.Gen.ReferenceIdeal.Read
import proofs.«129659_j90452011254251_2_alg».proof.Proof.KernelTerms
import proofs.«129659_j90452011254251_2_alg».proof.Proof.LibEntryScatterAdd
import proofs.«129659_j90452011254251_2_alg».proof.Proof.LibSegmentGather
import proofs.«129659_j90452011254251_2_alg».proof.Proof.LibColumns

set_option maxRecDepth 16384

noncomputable section

namespace Cert.Bridge

open Cert.ReferenceIdeal.Read Cert.KernelIdeal.Terms
open Idealize.ShloMosaic Idealize.ShloMosaic.ValueIdx
open scoped BigOperators

/-- The word of 1.0. -/
abbrev one : EReal := Ideal.ofBits .f32 0x3F800000#32

/-- The destination number of edge e. -/
abbrev dstOf (x1 : (⟨Cert.ReferenceIdeal.S2x1600000, .i32⟩ : BufTy).Contents (Elt Ideal)) (e : Fin 1600000) : BitVec 32 := val_main_v3 (F := Ideal) x1 (ix1 e)

/-- The clamped in-degree of node n. -/
def deg (x1 : (⟨Cert.ReferenceIdeal.S2x1600000, .i32⟩ : BufTy).Contents (Elt Ideal)) (n : Fin 100000) : EReal :=
  max ((0 : EReal) + ∑ e : Fin 1600000, (if (dstOf x1 e).toInt = (n.val : Int) then one else 0)) one

/-- A scalar word repeated over any shape reads that word everywhere. -/
theorem splat_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  broadcastInDim_apply _ h _ i (fun a => a.elim0) (fun a => a.elim0)

theorem hostDivf_apply {s : Shape} (a b : FVec Ideal s .f32) (i : s.Idx) : Host.divf (F := Ideal) a b i = Ideal.div (a i) (b i) := rfl

/-- THE KERNEL'S COLUMN at node n is one over the clamped in-degree. -/
theorem invDeg_apply (x1 : (⟨Cert.ReferenceIdeal.S2x1600000, .i32⟩ : BufTy).Contents (Elt Ideal)) (n : Fin 100000) : invDeg x1 (ix2 n (0 : Fin 1)) = Ideal.div one (deg x1 n) := by
  unfold invDeg
  rw [Cert.LibColumns.broadcastInDim_a_a1_apply, hostDivf_apply, maximumf_apply, splat_apply]
  refine congrArg (Ideal.div one) (congrArg (fun t => max t one) ?_)
  refine ((congrFun (Cert.LibSegmentGather.scatterAdd_exact _ _ _ _) _).trans
    (Cert.LibEntryScatterAdd.entrySum_apply (R := 100000) (N := 1600000) (w := 32)
      Cert.KernelIdeal.scatter_S100000_S1600000x1_S1600000_n_0_0_1.wf _ _ _ n)).trans ?_
  rw [splat_apply, Ideal.ofBits_zero_f32]
  refine congrArg _ (Finset.sum_congr rfl fun e _ => ?_)
  rw [splat_apply]
  unfold val_main_v12
  rw [Cert.LibColumns.broadcastInDim_a_a1_apply]

/-- The reference's count column (either of its two copies' shape), read at node n. -/
theorem countColumn_apply (zero : FVec Ideal ⟨2, ![100000, 1]⟩ .f32) (hz : ∀ i, zero i = 0)
    (ones : FVec Ideal ⟨2, ![1600000, 1]⟩ .f32) (ho : ∀ i, ones i = one) (x1 : (⟨Cert.ReferenceIdeal.S2x1600000, .i32⟩ : BufTy).Contents (Elt Ideal)) (n : Fin 100000) :
    Host.scatterAdd (F := Ideal) (φ := .f32) Cert.ReferenceIdeal.scatter_S100000x1_S1600000x1_S1600000x1_1_0_0_1 zero
        (broadcastInDim Cert.ReferenceIdeal.S1600000x1 ![0] Cert.ReferenceIdeal.Gen.bcast_S1600000_S1600000x1_0 (val_main_v3 (F := Ideal) x1)) ones (ix2 n (0 : Fin 1))
      = (0 : EReal) + ∑ e : Fin 1600000, (if (dstOf x1 e).toInt = (n.val : Int) then one else 0) := by
  refine (Cert.LibSegmentGather.segmentSum_apply (R := 100000) (C := 1) (N := 1600000) (w := 32)
    Cert.ReferenceIdeal.scatter_S100000x1_S1600000x1_S1600000x1_1_0_0_1.wf Cert.ReferenceIdeal.Gen.bcast_S1600000_S1600000x1_0
    zero hz (val_main_v3 (F := Ideal) x1) ones n (0 : Fin 1)).trans ?_
  refine congrArg _ (Finset.sum_congr rfl fun e _ => ?_)
  rw [ho]

theorem zeros1_apply (i : Cert.ReferenceIdeal.S100000x1.Idx) : val_main_v15 (F := Ideal) i = 0 := by
  rw [val_main_v15_apply, val_main_cst_2_apply]; exact Ideal.ofBits_zero_f32
theorem zeros2_apply (i : Cert.ReferenceIdeal.S100000x1.Idx) : val_main_v42 (F := Ideal) i = 0 := by
  rw [val_main_v42_apply, val_main_cst_8_apply]; exact Ideal.ofBits_zero_f32
theorem ones1_apply (i : Cert.ReferenceIdeal.S1600000x1.Idx) : val_main_v14 (F := Ideal) i = one := by
  rw [val_main_v14_apply, val_main_cst_1_apply]; rfl
theorem ones2_apply (i : Cert.ReferenceIdeal.S1600000x1.Idx) : val_main_v41 (F := Ideal) i = one := by
  rw [val_main_v41_apply, val_main_cst_7_apply]; rfl

/-- THE REFERENCE'S FIRST COLUMN at node n is the clamped in-degree. -/
theorem refDeg1_apply (x1 : (⟨Cert.ReferenceIdeal.S2x1600000, .i32⟩ : BufTy).Contents (Elt Ideal)) (n : Fin 100000) : val_main_v19 (F := Ideal) x1 (ix2 n (0 : Fin 1)) = deg x1 n := by
  rw [val_main_v19_apply, val_main_v18_apply, val_main_cst_3_apply]
  unfold val_main_v17 val_main_v16
  rw [countColumn_apply _ zeros1_apply _ ones1_apply x1 n]
  rfl

/-- THE REFERENCE'S SECOND COLUMN at node n is the clamped in-degree. -/
theorem refDeg2_apply (x1 : (⟨Cert.ReferenceIdeal.S2x1600000, .i32⟩ : BufTy).Contents (Elt Ideal)) (n : Fin 100000) : val_main_v46 (F := Ideal) x1 (ix2 n (0 : Fin 1)) = deg x1 n := by
  rw [val_main_v46_apply, val_main_v45_apply, val_main_cst_9_apply]
  unfold val_main_v44 val_main_v43
  rw [countColumn_apply _ zeros2_apply _ ones2_apply x1 n]
  rfl

end Cert.Bridge

end
-- ==== Proof.RefLayers.lean ====
/-
  The reference's two SAGE layers, read at one entry (n, f).

  With deg n the clamped in-degree column, agg the segment sum of the source rows, W_lᵀ and W_rᵀ the transposed
  weights and b the bias, the reference computes at (n, f)

      max (((Σ_k (agg(n, k) / deg n) · W_lᵀ(k, f)) + b f) + Σ_k h(n, k) · W_rᵀ(k, f)) 0,

  h the layer's input (x for the first layer, the first layer's output for the second). The generated stage lemmas
  read each operation at an index; here they are chained and their composed index maps identified with the plain
  coordinates. The segment sums themselves (a lookup of rows at the source numbers, added into the rows at the
  destination numbers) are read by the library of this directory:

      agg(n, k) = 0 + Σ_e [d(e) = n] t(s(e), k).
-/
import proofs.«129659_j90452011254251_2_alg».proof.Proof.Gen.ReferenceIdeal.Read
import proofs.«129659_j90452011254251_2_alg».proof.Proof.KernelTerms
import proofs.«129659_j90452011254251_2_alg».proof.Proof.LibSegmentGather
import proofs.«129659_j90452011254251_2_alg».proof.Proof.DegreeReads

set_option maxRecDepth 16384

noncomputable section

namespace Cert.Bridge

open Cert.ReferenceIdeal.Read Cert.KernelIdeal.Terms
open Idealize.ShloMosaic Idealize.ShloMosaic.ValueIdx
open scoped BigOperators

/-- The source row of edge e: its source number (a negative one shifted up by the number of nodes), read signed and
    clamped into the table. -/
abbrev srcOf (x1 : (⟨Cert.ReferenceIdeal.S2x1600000, .i32⟩ : BufTy).Contents (Elt Ideal)) (e : Fin 1600000) : Fin 100000 :=
  Cert.LibRowGather.rowOf 100000 (by decide) (val_main_v8 (F := Ideal) x1 (ix1 e))

theorem zeros128_apply (i : Cert.ReferenceIdeal.S100000x128.Idx) : val_main_v11 (F := Ideal) i = 0 := by
  rw [val_main_v11_apply, val_main_cst_apply]; exact Ideal.ofBits_zero_f32
theorem zeros64_apply (i : Cert.ReferenceIdeal.S100000x64.Idx) : val_main_v38 (F := Ideal) i = 0 := by
  rw [val_main_v38_apply, val_main_cst_6_apply]; exact Ideal.ofBits_zero_f32

/-- The first layer's segment sum of the rows of x, at (n, k). -/
theorem agg1_apply (x0 : (⟨Cert.ReferenceIdeal.S100000x128, .f32⟩ : BufTy).Contents (Elt Ideal)) (x1 : (⟨Cert.ReferenceIdeal.S2x1600000, .i32⟩ : BufTy).Contents (Elt Ideal)) (n : Fin 100000) (k : Fin 128) :
    val_main_v13 (F := Ideal) x0 x1 (ix2 n k)
      = (0 : EReal) + ∑ e : Fin 1600000, (if (dstOf x1 e).toInt = (n.val : Int) then x0 (ix2 (srcOf x1 e) k) else 0) := by
  unfold val_main_v13 val_main_v12 val_main_v10 val_main_v9
  exact Cert.LibSegmentGather.segmentOfLookup_apply (R := 100000) (C := 128) (N := 1600000) (w := 32) (by decide)
    Cert.ReferenceIdeal.scatter_S100000x128_S1600000x1_S1600000x128_1_0_0_1.wf
    Cert.ReferenceIdeal.gather_S100000x128_S1600000x1_S1600000x128_1_0_n_n_0_1_1128.wf
    Cert.ReferenceIdeal.Gen.bcast_S1600000_S1600000x1_0 (val_main_v11 (F := Ideal)) zeros128_apply x0
    (val_main_v8 (F := Ideal) x1) (val_main_v3 (F := Ideal) x1) n k

/-- The segment sum of the rows of any 100000 × 64 table, at (n, f). -/
theorem segsum64_apply (t : Arr Cert.KernelIdeal.S100000x64 .f32) (x1 : (⟨Cert.ReferenceIdeal.S2x1600000, .i32⟩ : BufTy).Contents (Elt Ideal)) (n : Fin 100000) (f : Fin 64) :
    segsum64 t x1 (ix2 n f)
      = (0 : EReal) + ∑ e : Fin 1600000, (if (dstOf x1 e).toInt = (n.val : Int) then t (ix2 (srcOf x1 e) f) else 0) := by
  unfold segsum64 val_main_v39 val_main_v36
  exact Cert.LibSegmentGather.segmentOfLookup_apply (R := 100000) (C := 64) (N := 1600000) (w := 32) (by decide)
    Cert.ReferenceIdeal.scatter_S100000x64_S1600000x1_S1600000x64_1_0_0_1.wf
    Cert.ReferenceIdeal.gather_S100000x64_S1600000x1_S1600000x64_1_0_n_n_0_1_164.wf
    Cert.ReferenceIdeal.Gen.bcast_S1600000_S1600000x1_0 (val_main_v38 (F := Ideal)) zeros64_apply t
    (val_main_v35 (F := Ideal) x1) (val_main_v3 (F := Ideal) x1) n f

/-- THE FIRST LAYER at (n, f). -/
theorem ref_layer1_apply (x0 : (⟨Cert.ReferenceIdeal.S100000x128, .f32⟩ : BufTy).Contents (Elt Ideal)) (x1 : (⟨Cert.ReferenceIdeal.S2x1600000, .i32⟩ : BufTy).Contents (Elt Ideal)) (x4 : (⟨Cert.ReferenceIdeal.S64x128, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (n : Fin 100000) (f : Fin 64) :
    val_main_v30 (F := Ideal) x0 x1 x4 x5 x6 (ix2 n f)
      = max (((∑ k : Fin 128, Ideal.div (val_main_v13 (F := Ideal) x0 x1 (ix2 n k)) (val_main_v19 (F := Ideal) x1 (ix2 n (0 : Fin 1)))
                * val_main_v22 (F := Ideal) x4 (ix2 k f)) + x5 (ix1 f))
          + ∑ k : Fin 128, x0 (ix2 n k) * val_main_v27 (F := Ideal) x6 (ix2 k f)) (Ideal.ofBits .f32 0x00000000#32) := by
  have e1 : ∀ k : Fin 128, lidx_main_v23 (ix2 n f) k = ix2 n k := fun k => funext fun a => Fin.ext (by
    match a with | ⟨0, _⟩ => rfl | ⟨1, _⟩ => rfl)
  have e2 : ∀ k : Fin 128, ridx_main_v23 (ix2 n f) k = ix2 k f := fun k => funext fun a => Fin.ext (by
    match a with | ⟨0, _⟩ => rfl | ⟨1, _⟩ => rfl)
  have e3 : ∀ k : Fin 128, idx_main_v20 (ix2 n k) = ix2 n (0 : Fin 1) := fun k => funext fun a => Fin.ext (by
    match a with | ⟨0, _⟩ => rfl | ⟨1, _⟩ => rfl)
  have e4 : idx_main_v24 (idx_main_v25 (ix2 n f)) = ix1 f := funext fun a => Fin.ext (by
    match a with | ⟨0, _⟩ => rfl)
  have e5 : ∀ k : Fin 128, lidx_main_v28 (ix2 n f) k = ix2 n k := fun k => funext fun a => Fin.ext (by
    match a with | ⟨0, _⟩ => rfl | ⟨1, _⟩ => rfl)
  have e6 : ∀ k : Fin 128, ridx_main_v28 (ix2 n f) k = ix2 k f := fun k => funext fun a => Fin.ext (by
    match a with | ⟨0, _⟩ => rfl | ⟨1, _⟩ => rfl)
  rw [val_main_v30_apply, val_main_v29_apply, val_main_v26_apply, val_main_v23_apply, val_main_v28_apply, val_main_v25_apply,
    val_main_v24_apply, val_main_call0_v0_apply, val_main_call0_cst_apply, e4]
  have hA : ∀ k : Fin 128, val_main_v21 (F := Ideal) x0 x1 (lidx_main_v23 (ix2 n f) k) * val_main_v22 (F := Ideal) x4 (ridx_main_v23 (ix2 n f) k)
      = Ideal.div (val_main_v13 (F := Ideal) x0 x1 (ix2 n k)) (val_main_v19 (F := Ideal) x1 (ix2 n (0 : Fin 1)))
          * val_main_v22 (F := Ideal) x4 (ix2 k f) := by
    intro k
    rw [e1 k, e2 k, val_main_v21_apply, val_main_v20_apply, e3 k]
    rfl
  have hB : ∀ k : Fin 128, x0 (lidx_main_v28 (ix2 n f) k) * val_main_v27 (F := Ideal) x6 (ridx_main_v28 (ix2 n f) k)
      = x0 (ix2 n k) * val_main_v27 (F := Ideal) x6 (ix2 k f) := by
    intro k
    rw [e5 k, e6 k]
  rw [Finset.sum_congr rfl (fun k _ => hA k), Finset.sum_congr rfl (fun k _ => hB k)]
  rfl

/-- THE SECOND LAYER at (n, f). -/
theorem ref_layer2_apply (x0 : (⟨Cert.ReferenceIdeal.S100000x128, .f32⟩ : BufTy).Contents (Elt Ideal)) (x1 : (⟨Cert.ReferenceIdeal.S2x1600000, .i32⟩ : BufTy).Contents (Elt Ideal)) (x4 : (⟨Cert.ReferenceIdeal.S64x128, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (n : Fin 100000) (f : Fin 64) :
    val_main_v57 (F := Ideal) x0 x1 x4 x5 x6 x7 x8 x9 (ix2 n f)
      = max (((∑ k : Fin 64, Ideal.div (val_main_v40 (F := Ideal) x0 x1 x4 x5 x6 (ix2 n k)) (val_main_v46 (F := Ideal) x1 (ix2 n (0 : Fin 1)))
                * val_main_v49 (F := Ideal) x7 (ix2 k f)) + x8 (ix1 f))
          + ∑ k : Fin 64, val_main_v30 (F := Ideal) x0 x1 x4 x5 x6 (ix2 n k) * val_main_v54 (F := Ideal) x9 (ix2 k f))
          (Ideal.ofBits .f32 0x00000000#32) := by
  have e1 : ∀ k : Fin 64, lidx_main_v50 (ix2 n f) k = ix2 n k := fun k => funext fun a => Fin.ext (by
    match a with | ⟨0, _⟩ => rfl | ⟨1, _⟩ => rfl)
  have e2 : ∀ k : Fin 64, ridx_main_v50 (ix2 n f) k = ix2 k f := fun k => funext fun a => Fin.ext (by
    match a with | ⟨0, _⟩ => rfl | ⟨1, _⟩ => rfl)
  have e3 : ∀ k : Fin 64, idx_main_v47 (ix2 n k) = ix2 n (0 : Fin 1) := fun k => funext fun a => Fin.ext (by
    match a with | ⟨0, _⟩ => rfl | ⟨1, _⟩ => rfl)
  have e4 : idx_main_v51 (idx_main_v52 (ix2 n f)) = ix1 f := funext fun a => Fin.ext (by
    match a with | ⟨0, _⟩ => rfl)
  have e5 : ∀ k : Fin 64, lidx_main_v55 (ix2 n f) k = ix2 n k := fun k => funext fun a => Fin.ext (by
    match a with | ⟨0, _⟩ => rfl | ⟨1, _⟩ => rfl)
  have e6 : ∀ k : Fin 64, ridx_main_v55 (ix2 n f) k = ix2 k f := fun k => funext fun a => Fin.ext (by
    match a with | ⟨0, _⟩ => rfl | ⟨1, _⟩ => rfl)
  rw [val_main_v57_apply, val_main_v56_apply, val_main_v53_apply, val_main_v50_apply, val_main_v55_apply, val_main_v52_apply,
    val_main_v51_apply, val_main_call1_v0_apply, val_main_call1_cst_apply, e4]
  have hA : ∀ k : Fin 64, val_main_v48 (F := Ideal) x0 x1 x4 x5 x6 (lidx_main_v50 (ix2 n f) k) * val_main_v49 (F := Ideal) x7 (ridx_main_v50 (ix2 n f) k)
      = Ideal.div (val_main_v40 (F := Ideal) x0 x1 x4 x5 x6 (ix2 n k)) (val_main_v46 (F := Ideal) x1 (ix2 n (0 : Fin 1)))
          * val_main_v49 (F := Ideal) x7 (ix2 k f) := by
    intro k
    rw [e1 k, e2 k, val_main_v48_apply, val_main_v47_apply, e3 k]
    rfl
  have hB : ∀ k : Fin 64, val_main_v30 (F := Ideal) x0 x1 x4 x5 x6 (lidx_main_v55 (ix2 n f) k) * val_main_v54 (F := Ideal) x9 (ridx_main_v55 (ix2 n f) k)
      = val_main_v30 (F := Ideal) x0 x1 x4 x5 x6 (ix2 n k) * val_main_v54 (F := Ideal) x9 (ix2 k f) := by
    intro k
    rw [e5 k, e6 k]
  rw [Finset.sum_congr rfl (fun k _ => hA k), Finset.sum_congr rfl (fun k _ => hB k)]
  rfl

end Cert.Bridge

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.LibMeanAggregate.lean ====
/-
  Mean aggregation over the incoming edges of a node, on the extended reals.

  A node n has the edges e with `hit e` (its destination is n). With one = 1, its degree clamped below by one is
      C = max (0 + Σ_e [hit e] one) one,
  a real number ≥ 1. Three facts:

    * `count_real`: C is a positive real;
    * `div_count`: for EVERY extended real s, s / C = s · (one / C) — dividing by a non-zero real is
      multiplying by its reciprocal, infinities included; so "divide the sum by the degree" and "multiply the sum
      by the reciprocal degree" agree entry by entry with no finiteness;
    * `project_then_aggregate`: for REAL features x(e, k) and weights w(k),
          Σ_k ((0 + Σ_e [hit e] x(e, k)) / C) · w(k)  =  (0 + Σ_e [hit e] Σ_k x(e, k) · w(k)) · (one / C):
      aggregating and then projecting is projecting and then aggregating (the projection is linear). This one
      exchanges two finite sums and moves a factor across them, which fails at infinities: it is stated for reals.
-/
import Idealize.ShloMosaic.PureOps.Ideal
import proofs.«129659_j90452011254251_2_alg».proof.Proof.LibFiniteSums

noncomputable section

namespace Cert.LibMeanAggregate

open Idealize.ShloMosaic
open scoped BigOperators

variable {E K : Type*} [Fintype E] [Fintype K]

/-- A sum of ones over the edges that hit, inside the extended reals, is the real count. -/
theorem count_coe (hit : E → Prop) [DecidablePred hit] :
    (0 : EReal) + ∑ e, (if hit e then (((1 : ℝ) : EReal)) else 0) = (((∑ e, if hit e then (1 : ℝ) else 0 : ℝ)) : EReal) := by
  rw [zero_add, ← Cert.LibFiniteSums.coe_sum]
  refine Finset.sum_congr rfl fun e _ => ?_
  split <;> simp

/-- The clamped degree is a positive real. -/
theorem count_real (hit : E → Prop) [DecidablePred hit] (one : EReal) (h1 : one = (((1 : ℝ)) : EReal)) :
    ∃ c : ℝ, 0 < c ∧ max ((0 : EReal) + ∑ e, (if hit e then one else 0)) one = ((c : ℝ) : EReal) := by
  subst h1
  refine ⟨max (∑ e, if hit e then (1 : ℝ) else 0) 1, lt_of_lt_of_le one_pos (le_max_right _ _), ?_⟩
  rw [count_coe]
  exact (EReal.coe_strictMono.monotone.map_max).symm

/-- Dividing by a non-zero real is multiplying by one over it, for every extended real. -/
theorem div_real (s one : EReal) (h1 : one = (((1 : ℝ)) : EReal)) (c : ℝ) (hc : c ≠ 0) :
    Ideal.div s ((c : ℝ) : EReal) = s * Ideal.div one ((c : ℝ) : EReal) := by
  subst h1
  rw [Ideal.div_coe hc, Ideal.div_coe hc, ← EReal.coe_mul, one_mul]

/-- Dividing by the clamped degree is multiplying by its reciprocal. -/
theorem div_count (hit : E → Prop) [DecidablePred hit] (one : EReal) (h1 : one = (((1 : ℝ)) : EReal)) (s : EReal) :
    Ideal.div s (max ((0 : EReal) + ∑ e, (if hit e then one else 0)) one)
      = s * Ideal.div one (max ((0 : EReal) + ∑ e, (if hit e then one else 0)) one) := by
  obtain ⟨c, hc, e⟩ := count_real hit one h1
  rw [e]
  exact div_real s one h1 c (ne_of_gt hc)

/-- A sum over the edges that hit, of real terms, is the coerced real sum. -/
theorem hit_sum_coe (hit : E → Prop) [DecidablePred hit] (f : E → ℝ) :
    (0 : EReal) + ∑ e, (if hit e then ((f e : ℝ) : EReal) else 0) = (((∑ e, if hit e then f e else 0 : ℝ)) : EReal) := by
  rw [zero_add, ← Cert.LibFiniteSums.coe_sum]
  refine Finset.sum_congr rfl fun e _ => ?_
  split <;> simp

/-- AGGREGATE THEN PROJECT = PROJECT THEN AGGREGATE, for real features and weights. -/
theorem project_then_aggregate (hit : E → Prop) [DecidablePred hit] (one : EReal) (h1 : one = (((1 : ℝ)) : EReal))
    (x : E → K → EReal) (w : K → EReal) (hx : ∀ e k, ∃ r : ℝ, x e k = ((r : ℝ) : EReal)) (hw : ∀ k, ∃ r : ℝ, w k = ((r : ℝ) : EReal)) :
    (∑ k, Ideal.div ((0 : EReal) + ∑ e, (if hit e then x e k else 0)) (max ((0 : EReal) + ∑ e, (if hit e then one else 0)) one) * w k)
      = ((0 : EReal) + ∑ e, (if hit e then (∑ k, x e k * w k) else 0))
          * Ideal.div one (max ((0 : EReal) + ∑ e, (if hit e then one else 0)) one) := by
  obtain ⟨c, hc, ec⟩ := count_real hit one h1
  have hc0 : c ≠ 0 := ne_of_gt hc
  choose xr hxr using hx
  choose wr hwr using hw
  rw [ec]
  subst h1
  have hx' : x = fun e k => ((xr e k : ℝ) : EReal) := funext fun e => funext fun k => hxr e k
  have hw' : w = fun k => ((wr k : ℝ) : EReal) := funext fun k => hwr k
  subst hx' hw'
  simp only [hit_sum_coe, Ideal.div_coe hc0, Cert.LibFiniteSums.coe_sum_mul, ← EReal.coe_mul, Cert.LibFiniteSums.coe_sum]
  refine congrArg _ ?_
  rw [one_mul, Finset.sum_mul]
  have : ∀ k, (∑ e, if hit e then xr e k else 0) * (1 / c) * wr k = ∑ e, (if hit e then xr e k * wr k else 0) * (1 / c) := by
    intro k
    rw [Finset.sum_mul, Finset.sum_mul]
    refine Finset.sum_congr rfl fun e _ => ?_
    split <;> ring
  simp only [this]
  rw [Finset.sum_comm]
  refine Finset.sum_congr rfl fun e _ => ?_
  rw [← Finset.sum_mul]
  refine congrArg (· * (1 / c)) ?_
  split
  · rfl
  · simp

end Cert.LibMeanAggregate

end
-- ==== Proof.LibSiluTanh.lean ====
/-
  General laws on the reals and the extended reals: the logistic function written through the hyperbolic
  tangent of the half argument.

  For every real `r`:  1 / (1 + e^(-r)) = 1/2 + (1/2) · tanh (r/2).
  Indeed with a = e^(r/2) > 0 one has tanh (r/2) = (a - a⁻¹) / (a + a⁻¹), so
  1/2 + (1/2) · tanh (r/2) = a / (a + a⁻¹) = 1 / (1 + a⁻²) = 1 / (1 + e^(-r)).
  Multiplying by r gives the "SiLU" law  r · logistic r = t + t · tanh t  with t = r/2.

  The same two laws are then stated on the extended reals at real (finite) arguments, in the spelling
  the float operations have at the exact instance: the float words of 1/2, 1, 112 and 12544 are read as
  the reals they denote.
-/
import Idealize.ShloMosaic.PureOps.Ideal
import Idealize.ShloMosaic.Lib.ValueIdx
import Mathlib.Analysis.SpecialFunctions.Trigonometric.DerivHyp

noncomputable section

namespace Cert.LibSiluTanh

open Idealize.ShloMosaic

/-! ## The float words of this family of kernels, as reals -/

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The zero word denotes 0. -/
theorem ofBits_zero : Ideal.ofBits .f32 0x00000000#32 = ((0 : ℝ) : EReal) := by
  simp [Ideal.ofBits, Ideal.ieee]

/-- The word of `112.0` denotes the real 112. -/
theorem ofBits_112 : Ideal.ofBits .f32 0x42E00000#32 = ((112 : ℝ) : EReal) := by
  simp [Ideal.ofBits, Ideal.ieee, -EReal.coe_mul]; norm_num

/-- The word of `12544.0` denotes the real 12544 = 112 · 112. -/
theorem ofBits_12544 : Ideal.ofBits .f32 0x46440000#32 = ((12544 : ℝ) : EReal) := by
  simp [Ideal.ofBits, Ideal.ieee, -EReal.coe_mul]; norm_num

/-! ## On the reals -/

/-- The logistic function through the hyperbolic tangent of the half argument. -/
theorem logistic_eq_tanh_half (r : ℝ) :
    (1 + Real.exp (-r))⁻¹ = 1 / 2 + 1 / 2 * Real.tanh (1 / 2 * r) := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  set a := Real.exp (1 / 2 * r) with hadef
  have ha' : a ≠ 0 := ne_of_gt ha
  have h1 : a + a⁻¹ ≠ 0 := by positivity
  have h2 : 1 + a⁻¹ * a⁻¹ ≠ 0 := by positivity
  field_simp
  ring

/-- SiLU through the hyperbolic tangent: r · logistic r = t + t · tanh t with t = r/2. -/
theorem silu_eq_tanh_half (r : ℝ) :
    r * (1 + Real.exp (-r))⁻¹ = 1 / 2 * r + 1 / 2 * r * Real.tanh (1 / 2 * r) := by
  rw [logistic_eq_tanh_half]; ring

/-- The mean over a 112 × 112 plane taken at once is the mean of the row means. -/
theorem mean_of_means (s : ℝ) : s / 12544 = s / 112 / 112 := by
  rw [div_div]; norm_num

/-! ## On the extended reals, at real arguments -/

/-- The logistic function of a real, in the spelling the exact instance gives the kernel's
    `0.5 + 0.5 · tanh (0.5 · g)`. -/
theorem logistic_coe_eq_tanh (r : ℝ) :
    Ideal.logistic (r : EReal)
      = Ideal.ofBits .f32 0x3F000000#32
        + Ideal.ofBits .f32 0x3F000000#32 * Ideal.tanh (Ideal.ofBits .f32 0x3F000000#32 * (r : EReal)) := by
  rw [Ideal.logistic_coe, ofBits_half, ← EReal.coe_mul, Ideal.tanh_coe, ← EReal.coe_mul, ← EReal.coe_add,
    logistic_eq_tanh_half]

/-- SiLU of a real: the reference's `v · logistic v` is the kernel's `t + t · tanh t`, `t = 0.5 · v`. -/
theorem silu_coe_eq_tanh (r : ℝ) :
    (r : EReal) * Ideal.logistic (r : EReal)
      = Ideal.ofBits .f32 0x3F000000#32 * (r : EReal)
        + Ideal.ofBits .f32 0x3F000000#32 * (r : EReal)
          * Ideal.tanh (Ideal.ofBits .f32 0x3F000000#32 * (r : EReal)) := by
  rw [Ideal.logistic_coe, ofBits_half, ← EReal.coe_mul, ← EReal.coe_mul, Ideal.tanh_coe, ← EReal.coe_mul,
    ← EReal.coe_add, silu_eq_tanh_half]

/-- The host's spelling of the logistic function, `1 / (1 + e^(-x))`, is the one-operation form. -/
theorem host_logistic_eq (x : EReal) :
    Ideal.div (Ideal.ofBits .f32 0x3F800000#32) (Ideal.ofBits .f32 0x3F800000#32 + Ideal.exp (-x))
      = Ideal.logistic x := by
  rw [ofBits_one]; rfl

/-- The logistic function and SiLU of a real are real. -/
theorem logistic_coe_real (r : ℝ) : ∃ s : ℝ, Ideal.logistic (r : EReal) = (s : EReal) :=
  ⟨_, Ideal.logistic_coe r⟩

/-- Division of a real by the words of 112 twice is division by the word of 12544 once. -/
theorem div_112_112 (r : ℝ) :
    Ideal.div (Ideal.div (r : EReal) (Ideal.ofBits .f32 0x42E00000#32)) (Ideal.ofBits .f32 0x42E00000#32)
      = Ideal.div (r : EReal) (Ideal.ofBits .f32 0x46440000#32) := by
  rw [ofBits_112, ofBits_12544, Ideal.div_coe (by norm_num : (112 : ℝ) ≠ 0),
    Ideal.div_coe (by norm_num : (112 : ℝ) ≠ 0), Ideal.div_coe (by norm_num : (12544 : ℝ) ≠ 0),
    ← EReal.coe_mul, ← EReal.coe_mul, ← EReal.coe_mul]
  congr 1; ring

/-! ## On vectors of real entries, in the programs' own spelling -/

/-- SiLU of a vector whose entries are all real: the reference's `v · logistic v` is the kernel's
    `t + t · tanh t` with `t = 0.5 · v`, entry by entry. -/
theorem silu_vec {s : Shape} (v : FVec Ideal s .f32) (hv : ∀ i, ∃ r : ℝ, v i = ((r : ℝ) : EReal)) :
    mulf v (logistic v)
      = addf (mulf (broadcast s (Scalar.ofBits (F := Ideal) .f32 0x3F000000#32)) v)
          (mulf (mulf (broadcast s (Scalar.ofBits (F := Ideal) .f32 0x3F000000#32)) v)
            (tanh (mulf (broadcast s (Scalar.ofBits (F := Ideal) .f32 0x3F000000#32)) v))) := by
  funext i
  obtain ⟨r, hr⟩ := hv i
  show v i * Ideal.logistic (v i)
    = Ideal.ofBits .f32 0x3F000000#32 * v i
      + Ideal.ofBits .f32 0x3F000000#32 * v i * Ideal.tanh (Ideal.ofBits .f32 0x3F000000#32 * v i)
  rw [hr]; exact silu_coe_eq_tanh r

/-- The gate of a vector whose entries are all real: `logistic g` is the kernel's `0.5 + 0.5 · tanh (0.5 · g)`. -/
theorem gate_vec {s : Shape} (g : FVec Ideal s .f32) (hg : ∀ i, ∃ r : ℝ, g i = ((r : ℝ) : EReal)) :
    logistic g
      = addf (broadcast s (Scalar.ofBits (F := Ideal) .f32 0x3F000000#32))
          (mulf (broadcast s (Scalar.ofBits (F := Ideal) .f32 0x3F000000#32))
            (tanh (mulf (broadcast s (Scalar.ofBits (F := Ideal) .f32 0x3F000000#32)) g))) := by
  funext i
  obtain ⟨r, hr⟩ := hg i
  show Ideal.logistic (g i)
    = Ideal.ofBits .f32 0x3F000000#32
      + Ideal.ofBits .f32 0x3F000000#32 * Ideal.tanh (Ideal.ofBits .f32 0x3F000000#32 * g i)
  rw [hr]; exact logistic_coe_eq_tanh r

/-- SiLU and the gate keep real entries real. -/
theorem silu_real (r : ℝ) : ∃ s : ℝ, (r : EReal) * Ideal.logistic (r : EReal) = (s : EReal) :=
  ⟨r * (1 + Real.exp (-r))⁻¹, by rw [Ideal.logistic_coe, ← EReal.coe_mul]⟩

/-! ## Real entries stay real -/

/-- A value is real when it is neither infinity. The operations of this family of kernels — sum, product, quotient
    by a non-zero real, exponential, hyperbolic tangent, logistic — take reals to reals, which is what lets the ring
    laws be used on every intermediate value once the inputs are finite. -/
def IsReal (x : EReal) : Prop := ∃ r : ℝ, x = ((r : ℝ) : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_div {x : EReal} (hx : IsReal x) {d : ℝ} (hd : d ≠ 0) : IsReal (Ideal.div x (d : EReal)) := by
  obtain ⟨a, rfl⟩ := hx; exact ⟨a * (1 / d), by rw [Ideal.div_coe hd, ← EReal.coe_mul]⟩

theorem isReal_exp {x : EReal} (hx : IsReal x) : IsReal (Ideal.exp x) := by
  obtain ⟨a, rfl⟩ := hx; exact ⟨Real.exp a, Ideal.exp_coe a⟩

theorem isReal_tanh {x : EReal} (hx : IsReal x) : IsReal (Ideal.tanh x) := by
  obtain ⟨a, rfl⟩ := hx; exact ⟨Real.tanh a, Ideal.tanh_coe a⟩

theorem isReal_logistic {x : EReal} (hx : IsReal x) : IsReal (Ideal.logistic x) := by
  obtain ⟨a, rfl⟩ := hx; exact ⟨_, Ideal.logistic_coe a⟩

theorem isReal_half : IsReal (Ideal.ofBits .f32 0x3F000000#32) := ⟨_, ofBits_half⟩
theorem isReal_zero : IsReal (Ideal.ofBits .f32 0x00000000#32) := ⟨_, ofBits_zero⟩

end Cert.LibSiluTanh

end
-- ==== Proof.LayerBridge.lean ====
/-
  The kernel's two layers are the reference's, array by array.

  First layer. The reference aggregates the rows of x over the incoming edges, divides by the clamped in-degree and
  then projects by W_lᵀ; the kernel projects the rows of x first, aggregates the projected rows and multiplies by
  the reciprocal degree. Both add the root projection x · W_rᵀ and the bias (in different orders, which addition on
  the extended reals does not see) and clamp at zero. The projection being linear the two agree — for REAL features
  and weights: the step exchanges the sum over edges with the sum over features and moves the reciprocal degree
  across both, which fails at infinities. This is where the finiteness of x and W_l1 is used.

  Second layer. Both programs aggregate the first layer's output h (the same array once the first layers agree),
  and here they differ only in dividing by the degree against multiplying by its reciprocal, entry by entry, which
  agree for every extended real; so no finiteness is needed.
-/
import proofs.«129659_j90452011254251_2_alg».proof.Proof.Gen.ReferenceIdeal.Read
import proofs.«129659_j90452011254251_2_alg».proof.Proof.KernelTerms
import proofs.«129659_j90452011254251_2_alg».proof.Proof.DegreeReads
import proofs.«129659_j90452011254251_2_alg».proof.Proof.RefLayers
import proofs.«129659_j90452011254251_2_alg».proof.Proof.LibMeanAggregate
import proofs.«129659_j90452011254251_2_alg».proof.Proof.LibSiluTanh
import Idealize.ShloMosaic.Lib.ValueLayout

set_option maxRecDepth 16384

noncomputable section

namespace Cert.Bridge

open Cert.ReferenceIdeal.Read Cert.KernelIdeal.Terms
open Idealize.ShloMosaic Idealize.ShloMosaic.ValueIdx
open scoped BigOperators

theorem one_eq : one = (((1 : ℝ)) : EReal) := Cert.LibSiluTanh.ofBits_one

theorem rowsTimes_apply (x : Arr Cert.KernelIdeal.S100000x128 .f32) (w : Arr Cert.KernelIdeal.S128x64 .f32) (n : Fin 100000) (f : Fin 64) :
    Cert.KernelIdeal.RegionProject.rowsTimes x w (ix2 n f) = ∑ k : Fin 128, x (ix2 n k) * w (ix2 k f) := rfl

theorem finishOf_apply (msg r : Arr Cert.KernelIdeal.S100000x64 .f32) (inv : Arr Cert.KernelIdeal.S100000x1 .f32)
    (b : Arr Cert.KernelIdeal.S1x64 .f32) (n : Fin 100000) (f : Fin 64) :
    Cert.KernelIdeal.RegionFinish.finishOf msg r inv b (ix2 n f)
      = max ((msg (ix2 n f) * inv (ix2 n (0 : Fin 1)) + r (ix2 n f)) + b (ix2 (0 : Fin 1) f)) (Ideal.ofBits .f32 0x00000000#32) := rfl

theorem combineOf_apply (msg h : Arr Cert.KernelIdeal.S100000x64 .f32) (inv : Arr Cert.KernelIdeal.S100000x1 .f32)
    (wl wr : Arr Cert.KernelIdeal.S64x64 .f32) (b : Arr Cert.KernelIdeal.S1x64 .f32) (n : Fin 100000) (f : Fin 64) :
    Cert.KernelIdeal.RegionCombine.combineOf msg h inv wl wr b (ix2 n f)
      = max (((∑ k : Fin 64, (msg (ix2 n k) * inv (ix2 n (0 : Fin 1))) * wl (ix2 k f)) + ∑ k : Fin 64, h (ix2 n k) * wr (ix2 k f))
          + b (ix2 (0 : Fin 1) f)) (Ideal.ofBits .f32 0x00000000#32) := rfl

/-- A bias laid out as one row reads the bias. -/
theorem biasRow_apply (b : Arr Cert.KernelIdeal.S64 .f32) (f : Fin 64) : biasRow b (ix2 (0 : Fin 1) f) = b (ix1 f) := by
  unfold biasRow
  exact shapeCast_a_1a_apply b _ (0 : Fin 1) f

/-- THE FIRST LAYER: the kernel's features are the reference's, for real x and W_l1. -/
theorem feat1_eq (x0 : (⟨Cert.ReferenceIdeal.S100000x128, .f32⟩ : BufTy).Contents (Elt Ideal)) (x1 : (⟨Cert.ReferenceIdeal.S2x1600000, .i32⟩ : BufTy).Contents (Elt Ideal)) (x4 : (⟨Cert.ReferenceIdeal.S64x128, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal))
    (hx : ∀ i, ∃ r : ℝ, x0 i = ((r : ℝ) : EReal)) (hw : ∀ i, ∃ r : ℝ, x4 i = ((r : ℝ) : EReal)) :
    feat1 x0 x1 x4 x5 x6 = val_main_v30 (F := Ideal) x0 x1 x4 x5 x6 := by
  funext i
  obtain ⟨n, f, rfl⟩ : ∃ (n : Fin 100000) (f : Fin 64), i = ix2 n f := ⟨i 0, i 1, eq_ix2 i⟩
  rw [ref_layer1_apply]
  unfold feat1
  rw [finishOf_apply, segsum64_apply, invDeg_apply, biasRow_apply, rowsTimes_apply, refDeg1_apply]
  simp only [rowsTimes_apply, agg1_apply]
  have hwT : ∀ k : Fin 128, ∃ r : ℝ, val_main_v22 (F := Ideal) x4 (ix2 k f) = ((r : ℝ) : EReal) := fun k => by
    rw [val_main_v22_apply]; exact hw _
  have key := Cert.LibMeanAggregate.project_then_aggregate (E := Fin 1600000) (K := Fin 128)
    (fun e => (dstOf x1 e).toInt = (n.val : Int)) one one_eq
    (fun e k => x0 (ix2 (srcOf x1 e) k)) (fun k => val_main_v22 (F := Ideal) x4 (ix2 k f)) (fun e k => hx _) hwT
  unfold deg
  rw [key, add_right_comm]

/-- THE SECOND LAYER: from the same features, the kernel's embeddings are the reference's. -/
theorem feat2_eq (x0 : (⟨Cert.ReferenceIdeal.S100000x128, .f32⟩ : BufTy).Contents (Elt Ideal)) (x1 : (⟨Cert.ReferenceIdeal.S2x1600000, .i32⟩ : BufTy).Contents (Elt Ideal)) (x4 : (⟨Cert.ReferenceIdeal.S64x128, .f32⟩ : BufTy).Contents (Elt Ideal)) (x5 : (⟨Cert.ReferenceIdeal.S64, .f32⟩ : BufTy).Contents (Elt Ideal)) (x6 : (⟨Cert.ReferenceIdeal.S64x128, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) :
    feat2 (val_main_v30 (F := Ideal) x0 x1 x4 x5 x6) x1 x7 x8 x9 = val_main_v57 (F := Ideal) x0 x1 x4 x5 x6 x7 x8 x9 := by
  funext i
  obtain ⟨n, f, rfl⟩ : ∃ (n : Fin 100000) (f : Fin 64), i = ix2 n f := ⟨i 0, i 1, eq_ix2 i⟩
  rw [ref_layer2_apply]
  unfold feat2
  rw [combineOf_apply, invDeg_apply, biasRow_apply, refDeg2_apply]
  have hseg : segsum64 (val_main_v30 (F := Ideal) x0 x1 x4 x5 x6) x1 = val_main_v40 (F := Ideal) x0 x1 x4 x5 x6 := rfl
  rw [hseg]
  have hdiv : ∀ s : EReal, Ideal.div s (deg x1 n) = s * Ideal.div one (deg x1 n) := fun s =>
    Cert.LibMeanAggregate.div_count (E := Fin 1600000) (fun e => (dstOf x1 e).toInt = (n.val : Int)) one one_eq s
  have hA : ∀ k : Fin 64, Ideal.div (val_main_v40 (F := Ideal) x0 x1 x4 x5 x6 (ix2 n k)) (deg x1 n) * val_main_v49 (F := Ideal) x7 (ix2 k f)
      = (val_main_v40 (F := Ideal) x0 x1 x4 x5 x6 (ix2 n k) * Ideal.div one (deg x1 n)) * val_main_v49 (F := Ideal) x7 (ix2 k f) :=
    fun k => congrArg (· * val_main_v49 (F := Ideal) x7 (ix2 k f)) (hdiv _)
  rw [Finset.sum_congr rfl (fun k _ => hA k), add_right_comm]

end Cert.Bridge

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.FiniteInputs.lean ====
/-
  From the precondition to real entries. The precondition is a conjunction of seven "every entry of this float
  input has absolute value below +∞"; the first two conjuncts are about the node features x and the first layer's
  neighbour weights W_l1, and each makes every entry of its array a real number.
-/
import proofs.«129659_j90452011254251_2_alg».proof.Defs
import proofs.«129659_j90452011254251_2_alg».proof.Proof.Gen.Pre_finite_inputs
import proofs.«129659_j90452011254251_2_alg».proof.Proof.LibFiniteDecode
import Idealize.ShloMosaic.Lib.Affine

set_option maxRecDepth 16384

noncomputable section

namespace Cert.Bridge

open Idealize.ShloMosaic Idealize.SL.Sem

/-- Under the precondition, x and W_l1 hold real numbers on every device. -/
theorem real_inputs (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg4) i = ((r : ℝ) : EReal)) := by
  have h0 := congrFun (h c) ValueIdx.ix0
  dsimp only [Cert.Pre_finite_inputs.fn, Cert.Pre_finite_inputs.fn_part1] at h0
  have h1 := (IntOp.andi_eq_one.mp h0).1
  have h2 := (IntOp.andi_eq_one.mp h1).1
  have h3 := (IntOp.andi_eq_one.mp h2).1
  have h4 := (IntOp.andi_eq_one.mp h3).1
  have h5 := (IntOp.andi_eq_one.mp h4).1
  obtain ⟨hx, hw⟩ := IntOp.andi_eq_one.mp h5
  exact ⟨Cert.LibFiniteDecode.real_of_all _ _ _ _ hx, Cert.LibFiniteDecode.real_of_all _ _ _ _ hw⟩

end Cert.Bridge

end
-- ==== Proof.lean ====
/-
  The certificate: a two-layer GraphSAGE link predictor computed by three kernel regions among host gathers and
  segment sums, against the plain reference — equal on the extended reals for finite inputs.

  The kernel differs from the reference in three ways, none of which the extended reals see once x and W_l1 are real:
  (1) in the first layer it projects the node features by W_l1ᵀ BEFORE aggregating them over the incoming edges, where
  the reference aggregates first (the projection is linear; this is the one step that needs finiteness); (2) it
  multiplies by the reciprocal of the clamped in-degree where the reference divides by the degree (equal for every
  extended real, the degree being a real ≥ 1); (3) it adds the bias after the root term where the reference adds it
  before (addition is commutative and associative). Rounding the matrix units' operands to bfloat16 is the identity
  at the ideal instance. The link decoder is the same operations on both sides and is never opened.

  Frames: the two kernel programs' frames are the generated ones; the reference's is its generated run with the
  result dropped. The idealization rewrote nothing, so `preserves` is trivial. For `algebraic` the kernel's run is
  restated with its result buffer named (KernelRun), that buffer is read through @main's segments as one function
  of the arguments (RegionProject / RegionFinish / RegionCombine / KernelFold), and that function is the reference's
  (LayerBridge over DegreeReads, RefLayers and LibMeanAggregate; FiniteInputs gives the real entries).
-/
import proofs.«129659_j90452011254251_2_alg».proof.Defs
import proofs.«129659_j90452011254251_2_alg».proof.Proof.Gen.Kernel
import proofs.«129659_j90452011254251_2_alg».proof.Proof.Gen.Kernel.Frame
import proofs.«129659_j90452011254251_2_alg».proof.Proof.Gen.KernelIdeal
import proofs.«129659_j90452011254251_2_alg».proof.Proof.Gen.KernelIdeal.Frame
import proofs.«129659_j90452011254251_2_alg».proof.Proof.Gen.ReferenceIdeal
import proofs.«129659_j90452011254251_2_alg».proof.Proof.Gen.Pre_finite_inputs
import proofs.«129659_j90452011254251_2_alg».proof.Proof.Gen.ReferenceIdeal.Run
import proofs.«129659_j90452011254251_2_alg».proof.Proof.Gen.ReferenceIdeal.Read
import proofs.«129659_j90452011254251_2_alg».proof.Proof.KernelRun
import proofs.«129659_j90452011254251_2_alg».proof.Proof.KernelFold
import proofs.«129659_j90452011254251_2_alg».proof.Proof.LayerBridge
import proofs.«129659_j90452011254251_2_alg».proof.Proof.FiniteInputs
import proofs.«129659_j90452011254251_2_alg».proof.Proof.LinkDecode
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the kernel's result buffer holds the reference's function of the kernel's own arguments. -/
theorem kernel_value (m : (ℓ : Loc Cert.KernelIdeal.nD Cert.KernelIdeal.τ Cert.KernelIdeal.sig) → Buf (Elt Ideal) ℓ)
    (hpre : Cert.Pre_KernelIdeal m) (ρ : Dev Cert.KernelIdeal.nD → PrngReg) (c : Dev Cert.KernelIdeal.nD) :
    Cert.KernelIdeal.Gen.W7 m ρ c (Proc.devRef .tc Cert.KernelIdeal.main_v63)
      = Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨hx, hw⟩ := Cert.Bridge.real_inputs m hpre c
  rw [Cert.KernelIdeal.Fold.W7_main_v63 m ρ c, Cert.ReferenceIdeal.RefValue.result_eq_decode]
  unfold Cert.KernelIdeal.Terms.out
  rw [Cert.Bridge.feat1_eq _ _ _ _ _ hx hw, Cert.Bridge.feat2_eq]

theorem algebraic : Cert.algebraic_KernelIdeal_ReferenceIdeal := by
  intro m ρ m' ρ' hpre hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    (θ_run Cert.KernelIdeal.defs _ _).mono (fun r h c => ⟨(h c).1.trans (kernel_value m hpre ρ c), (h c).2⟩)
      (Cert.KernelIdeal.RunNamed.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v79_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
